-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.truncf_extf.Statement Cert.KernelIdeal.S4096x784 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x28x28 : Shape := ⟨3, ![65536, 28, 28]⟩
abbrev S784x50 : Shape := ⟨2, ![784, 50]⟩
abbrev S50x50 : Shape := ⟨2, ![50, 50]⟩
abbrev S50x10 : Shape := ⟨2, ![50, 10]⟩
abbrev S50 : Shape := ⟨1, ![50]⟩
abbrev S_ : Shape := ⟨0, ![]⟩

class Facts : Prop where
  bcast_S_S65536x28x28 : S_.BroadcastsInDim S65536x28x28 (![] : Fin 0 → Fin S65536x28x28.rank)
  reducesTo_S65536x28x28_S_d0_1_2 : S65536x28x28.ReducesTo [0, 1, 2] S_
  h_S_ : 0 < S_.numel
  bcast_S_S784x50 : S_.BroadcastsInDim S784x50 (![] : Fin 0 → Fin S784x50.rank)
  reducesTo_S784x50_S_d0_1 : S784x50.ReducesTo [0, 1] S_
  bcast_S_S50x50 : S_.BroadcastsInDim S50x50 (![] : Fin 0 → Fin S50x50.rank)
  reducesTo_S50x50_S_d0_1 : S50x50.ReducesTo [0, 1] S_
  bcast_S_S50x10 : S_.BroadcastsInDim S50x10 (![] : Fin 0 → Fin S50x10.rank)
  reducesTo_S50x10_S_d0_1 : S50x10.ReducesTo [0, 1] S_
  bcast_S_S50 : S_.BroadcastsInDim S50 (![] : Fin 0 → Fin S50.rank)
  reducesTo_S50_S_d0 : S50.ReducesTo [0] S_

variable [Facts]

def fn_part3 {F : FTy → Type} [FloatOps F] (main_arg11 : FVec F S50 .f32) (main_v48 : IVec S_ 1) (main_v49 : FVec F S50 .f32) (main_v50 : FVec F S50 .f32) : IVec S_ 1 :=
  let main_v51 : IVec S50 1 := cmpf .olt main_v49 main_v50
  let main_c_19 : IVec S_ 1 := constantI S_ 1 1#1
  let main_v52 : IVec S_ 1 := (fun x v => Host.reduce IntOp.andi x v reducesTo_S50_S_d0 h_S_) main_v51 main_c_19
  let main_v53 : IVec S_ 1 := andi main_v48 main_v52
  let main_v54 : FVec F S50 .f32 := Host.absf main_arg11
  let main_cst_20 : FVec F S_ .f32 := constant S_ .f32 0x7F800000#32
  let main_v55 : FVec F S50 .f32 := broadcastInDim S50 ![] bcast_S_S50 main_cst_20
  let main_v56 : IVec S50 1 := cmpf .olt main_v54 main_v55
  let main_c_21 : IVec S_ 1 := constantI S_ 1 1#1
  let main_v57 : IVec S_ 1 := (fun x v => Host.reduce IntOp.andi x v reducesTo_S50_S_d0 h_S_) main_v56 main_c_21
  let main_v58 : IVec S_ 1 := andi main_v53 main_v57
  main_v58

def fn_part2 {F : FTy → Type} [FloatOps F] (main_arg7 : FVec F S50 .f32) (main_arg8 : FVec F S50 .f32) (main_arg9 : FVec F S50 .f32) (main_arg10 : FVec F S50 .f32) (main_arg11 : FVec F S50 .f32) (main_v33 : IVec S_ 1) : IVec S_ 1 :=
  let main_v34 : FVec F S50 .f32 := Host.absf main_arg7
  let main_cst_12 : FVec F S_ .f32 := constant S_ .f32 0x7F800000#32
  let main_v35 : FVec F S50 .f32 := broadcastInDim S50 ![] bcast_S_S50 main_cst_12
  let main_v36 : IVec S50 1 := cmpf .olt main_v34 main_v35
  let main_c_13 : IVec S_ 1 := constantI S_ 1 1#1
  let main_v37 : IVec S_ 1 := (fun x v => Host.reduce IntOp.andi x v reducesTo_S50_S_d0 h_S_) main_v36 main_c_13
  let main_v38 : IVec S_ 1 := andi main_v33 main_v37
  let main_v39 : FVec F S50 .f32 := Host.absf main_arg8
  let main_cst_14 : FVec F S_ .f32 := constant S_ .f32 0x7F800000#32
  let main_v40 : FVec F S50 .f32 := broadcastInDim S50 ![] bcast_S_S50 main_cst_14
  let main_v41 : IVec S50 1 := cmpf .olt main_v39 main_v40
  let main_c_15 : IVec S_ 1 := constantI S_ 1 1#1
  let main_v42 : IVec S_ 1 := (fun x v => Host.reduce IntOp.andi x v reducesTo_S50_S_d0 h_S_) main_v41 main_c_15
  let main_v43 : IVec S_ 1 := andi main_v38 main_v42
  let main_v44 : FVec F S50 .f32 := Host.absf main_arg9
  let main_cst_16 : FVec F S_ .f32 := constant S_ .f32 0x7F800000#32
  let main_v45 : FVec F S50 .f32 := broadcastInDim S50 ![] bcast_S_S50 main_cst_16
  let main_v46 : IVec S50 1 := cmpf .olt main_v44 main_v45
  let main_c_17 : IVec S_ 1 := constantI S_ 1 1#1
  let main_v47 : IVec S_ 1 := (fun x v => Host.reduce IntOp.andi x v reducesTo_S50_S_d0 h_S_) main_v46 main_c_17
  let main_v48 : IVec S_ 1 := andi main_v43 main_v47
  let main_v49 : FVec F S50 .f32 := Host.absf main_arg10
  let main_cst_18 : FVec F S_ .f32 := constant S_ .f32 0x7F800000#32
  let main_v50 : FVec F S50 .f32 := broadcastInDim S50 ![] bcast_S_S50 main_cst_18
  fn_part3 (F := F) main_arg11 main_v48 main_v49 main_v50

def fn_part1 {F : FTy → Type} [FloatOps F] (main_arg4 : FVec F S50 .f32) (main_arg5 : FVec F S50 .f32) (main_arg6 : FVec F S50 .f32) (main_arg7 : FVec F S50 .f32) (main_arg8 : FVec F S50 .f32) (main_arg9 : FVec F S50 .f32) (main_arg10 : FVec F S50 .f32) (main_arg11 : FVec F S50 .f32) (main_v13 : IVec S_ 1) (main_v16 : IVec S50x10 1) : IVec S_ 1 :=
  let main_c_5 : IVec S_ 1 := constantI S_ 1 1#1
  let main_v17 : IVec S_ 1 := (fun x v => Host.reduce IntOp.andi x v reducesTo_S50x10_S_d0_1 h_S_) main_v16 main_c_5
  let main_v18 : IVec S_ 1 := andi main_v13 main_v17
  let main_v19 : FVec F S50 .f32 := Host.absf main_arg4
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S50 .f32 := Host.absf main_arg5
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S50 .f32 := Host.absf main_arg6
  let main_cst_10 : FVec F S_ .f32 := constant S_ .f32 0x7F800000#32
  let main_v30 : FVec F S50 .f32 := broadcastInDim S50 ![] bcast_S_S50 main_cst_10
  let main_v31 : IVec S50 1 := cmpf .olt main_v29 main_v30
  let main_c_11 : IVec S_ 1 := constantI S_ 1 1#1
  let main_v32 : IVec S_ 1 := (fun x v => Host.reduce IntOp.andi x v reducesTo_S50_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x28x28 .f32) (main_arg1 : FVec F S784x50 .f32) (main_arg2 : FVec F S50x50 .f32) (main_arg3 : FVec F S50x10 .f32) (main_arg4 : FVec F S50 .f32) (main_arg5 : FVec F S50 .f32) (main_arg6 : FVec F S50 .f32) (main_arg7 : FVec F S50 .f32) (main_arg8 : FVec F S50 .f32) (main_arg9 : FVec F S50 .f32) (main_arg10 : FVec F S50 .f32) (main_arg11 : FVec F S50 .f32) : IVec S_ 1 :=
  let main_v0 : FVec F S65536x28x28 .f32 := Host.absf main_arg0
  let main_cst : FVec F S_ .f32 := constant S_ .f32 0x7F800000#32
  let main_v1 : FVec F S65536x28x28 .f32 := broadcastInDim S65536x28x28 ![] bcast_S_S65536x28x28 main_cst
  let main_v2 : IVec S65536x28x28 1 := cmpf .olt main_v0 main_v1
  let main_c : IVec S_ 1 := constantI S_ 1 1#1
  let main_v3 : IVec S_ 1 := (fun x v => Host.reduce IntOp.andi x v reducesTo_S65536x28x28_S_d0_1_2 h_S_) main_v2 main_c
  let main_v4 : FVec F S784x50 .f32 := Host.absf main_arg1
  let main_cst_0 : FVec F S_ .f32 := constant S_ .f32 0x7F800000#32
  let main_v5 : FVec F S784x50 .f32 := broadcastInDim S784x50 ![] bcast_S_S784x50 main_cst_0
  let main_v6 : IVec S784x50 1 := cmpf .olt main_v4 main_v5
  let main_c_1 : IVec S_ 1 := constantI S_ 1 1#1
  let main_v7 : IVec S_ 1 := (fun x v => Host.reduce IntOp.andi x v reducesTo_S784x50_S_d0_1 h_S_) main_v6 main_c_1
  let main_v8 : IVec S_ 1 := andi main_v3 main_v7
  let main_v9 : FVec F S50x50 .f32 := Host.absf main_arg2
  let main_cst_2 : FVec F S_ .f32 := constant S_ .f32 0x7F800000#32
  let main_v10 : FVec F S50x50 .f32 := broadcastInDim S50x50 ![] bcast_S_S50x50 main_cst_2
  let main_v11 : IVec S50x50 1 := cmpf .olt main_v9 main_v10
  let main_c_3 : IVec S_ 1 := constantI S_ 1 1#1
  let main_v12 : IVec S_ 1 := (fun x v => Host.reduce IntOp.andi x v reducesTo_S50x50_S_d0_1 h_S_) main_v11 main_c_3
  let main_v13 : IVec S_ 1 := andi main_v8 main_v12
  let main_v14 : FVec F S50x10 .f32 := Host.absf main_arg3
  let main_cst_4 : FVec F S_ .f32 := constant S_ .f32 0x7F800000#32
  let main_v15 : FVec F S50x10 .f32 := broadcastInDim S50x10 ![] bcast_S_S50x10 main_cst_4
  let main_v16 : IVec S50x10 1 := cmpf .olt main_v14 main_v15
  fn_part1 (F := F) main_arg4 main_arg5 main_arg6 main_arg7 main_arg8 main_arg9 main_arg10 main_arg11 main_v13 main_v16
-- ==== Kernel.lean ====
abbrev S65536x28x28 : Shape := ⟨3, ![65536, 28, 28]⟩
abbrev S784x50 : Shape := ⟨2, ![784, 50]⟩
abbrev S50x50 : Shape := ⟨2, ![50, 50]⟩
abbrev S50x10 : Shape := ⟨2, ![50, 10]⟩
abbrev S50 : Shape := ⟨1, ![50]⟩
abbrev S65536x784 : Shape := ⟨2, ![65536, 784]⟩
abbrev S1x50 : Shape := ⟨2, ![1, 50]⟩
abbrev S65536x10 : Shape := ⟨2, ![65536, 10]⟩
abbrev S4096x784 : Shape := ⟨2, ![4096, 784]⟩
abbrev S4096x10 : Shape := ⟨2, ![4096, 10]⟩
abbrev S4096x50 : Shape := ⟨2, ![4096, 50]⟩
abbrev S4096 : Shape := ⟨1, ![4096]⟩
abbrev S4096x1 : Shape := ⟨2, ![4096, 1]⟩

abbrev nBuf : Space → Nat
  | .hbm => 22
  | .vmem => 15
  | .smem => 0
  | _ => 0

abbrev bufTy : (tb : Table) → Fin (tcTables nBuf tb) → BufTy
  | .hbm, ⟨0, _⟩ => ⟨S65536x28x28, .f32⟩
  | .hbm, ⟨1, _⟩ => ⟨S784x50, .f32⟩
  | .hbm, ⟨2, _⟩ => ⟨S50x50, .f32⟩
  | .hbm, ⟨3, _⟩ => ⟨S50x10, .f32⟩
  | .hbm, ⟨4, _⟩ => ⟨S50, .f32⟩
  | .hbm, ⟨5, _⟩ => ⟨S50, .f32⟩
  | .hbm, ⟨6, _⟩ => ⟨S50, .f32⟩
  | .hbm, ⟨7, _⟩ => ⟨S50, .f32⟩
  | .hbm, ⟨8, _⟩ => ⟨S50, .f32⟩
  | .hbm, ⟨9, _⟩ => ⟨S50, .f32⟩
  | .hbm, ⟨10, _⟩ => ⟨S50, .f32⟩
  | .hbm, ⟨11, _⟩ => ⟨S50, .f32⟩
  | .hbm, ⟨12, _⟩ => ⟨S65536x784, .f32⟩
  | .hbm, ⟨13, _⟩ => ⟨S1x50, .f32⟩
  | .hbm, ⟨14, _⟩ => ⟨S1x50, .f32⟩
  | .hbm, ⟨15, _⟩ => ⟨S1x50, .f32⟩
  | .hbm, ⟨16, _⟩ => ⟨S1x50, .f32⟩
  | .hbm, ⟨17, _⟩ => ⟨S1x50, .f32⟩
  | .hbm, ⟨18, _⟩ => ⟨S1x50, .f32⟩
  | .hbm, ⟨19, _⟩ => ⟨S1x50, .f32⟩
  | .hbm, ⟨20, _⟩ => ⟨S1x50, .f32⟩
  | .hbm, ⟨21, _⟩ => ⟨S65536x10, .f32⟩
  | .local _ .vmem, ⟨0, _⟩ => ⟨S4096x784, .f32⟩
  | .local _ .vmem, ⟨1, _⟩ => ⟨S4096x784, .f32⟩
  | .local _ .vmem, ⟨2, _⟩ => ⟨S784x50, .f32⟩
  | .local _ .vmem, ⟨3, _⟩ => ⟨S50x50, .f32⟩
  | .local _ .vmem, ⟨4, _⟩ => ⟨S50x10, .f32⟩
  | .local _ .vmem, ⟨5, _⟩ => ⟨S1x50, .f32⟩
  | .local _ .vmem, ⟨6, _⟩ => ⟨S1x50, .f32⟩
  | .local _ .vmem, ⟨7, _⟩ => ⟨S1x50, .f32⟩
  | .local _ .vmem, ⟨8, _⟩ => ⟨S1x50, .f32⟩
  | .local _ .vmem, ⟨9, _⟩ => ⟨S1x50, .f32⟩
  | .local _ .vmem, ⟨10, _⟩ => ⟨S1x50, .f32⟩
  | .local _ .vmem, ⟨11, _⟩ => ⟨S1x50, .f32⟩
  | .local _ .vmem, ⟨12, _⟩ => ⟨S1x50, .f32⟩
  | .local _ .vmem, ⟨13, _⟩ => ⟨S4096x10, .f32⟩
  | .local _ .vmem, ⟨14, _⟩ => ⟨S4096x10, .f32⟩
  | _, _ => ⟨S65536x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S50x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x50 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x50 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x50 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096x10 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S65536x28x28_S65536x784 : S65536x28x28.ShapeCasts S65536x784
  shapeCasts_S50_S1x50 : S50.ShapeCasts S1x50
  inb_S4096x784_S4096x784_0_0 : ∀ a, (![0, 0] : Fin 2 → Nat) a + S4096x784.size a ≤ S4096x784.size a
  h_S4096x784 : 0 < S4096x784.numel
  shapeCasts_S4096x784_S4096x784 : S4096x784.ShapeCasts S4096x784
  inb_S784x50_S784x50_0_0 : ∀ a, (![0, 0] : Fin 2 → Nat) a + S784x50.size a ≤ S784x50.size a
  h_S784x50 : 0 < S784x50.numel
  bitsLt_bf16_f32 : FTy.bits .bf16 < FTy.bits .f32
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S4096x50 : S1x50.Broadcasts S4096x50
  inb_S50x50_S50x50_0_0 : ∀ a, (![0, 0] : Fin 2 → Nat) a + S50x50.size a ≤ S50x50.size a
  h_S50x50 : 0 < S50x50.numel
  inb_S50x10_S50x10_0_0 : ∀ a, (![0, 0] : Fin 2 → Nat) a + S50x10.size a ≤ S50x10.size a
  h_S50x10 : 0 < S50x10.numel
  reduces_S4096x10_S4096 : S4096x10.Reduces [1] S4096
  shapeCasts_S4096_S4096x1 : S4096.ShapeCasts S4096x1
  broadcasts_S4096x1_S4096x10 : S4096x1.Broadcasts S4096x10
  inb_S4096x10_S4096x10_0_0 : ∀ a, (![0, 0] : Fin 2 → Nat) a + S4096x10.size a ≤ S4096x10.size a
  h_S4096x10 : 0 < S4096x10.numel
  dot_S4096x784_S784x50_S4096x50_1_0_0_1_n_n_wf : DotDims.WF S4096x784 S784x50 S4096x50 [1] [0] [0] [1] [] []
  dot_S4096x50_S50x50_S4096x50_1_0_0_1_n_n_wf : DotDims.WF S4096x50 S50x50 S4096x50 [1] [0] [0] [1] [] []
  dot_S4096x50_S50x10_S4096x10_1_0_0_1_n_n_wf : DotDims.WF S4096x50 S50x10 S4096x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x784.size a ≤ S65536x784.size a
  hwx0_0 : ∀ i : grid0.Coords, EltTy.bits .f32 = 32 ∨ (Rect.block (s := S65536x784) S4096x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x50.size a ≤ S784x50.size a
  hwx0_1 : ∀ i : grid0.Coords, EltTy.bits .f32 = 32 ∨ (Rect.block (s := S784x50) S784x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x50.size a ≤ S50x50.size a
  hwx0_2 : ∀ i : grid0.Coords, EltTy.bits .f32 = 32 ∨ (Rect.block (s := S50x50) S50x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x10.size a ≤ S50x10.size a
  hwx0_3 : ∀ i : grid0.Coords, EltTy.bits .f32 = 32 ∨ (Rect.block (s := S50x10) S50x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x50.size a ≤ S1x50.size a
  hwx0_4 : ∀ i : grid0.Coords, EltTy.bits .f32 = 32 ∨ (Rect.block (s := S1x50) S1x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x50.size a ≤ S1x50.size a
  hwx0_5 : ∀ i : grid0.Coords, EltTy.bits .f32 = 32 ∨ (Rect.block (s := S1x50) S1x50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x50.size a ≤ S1x50.size a
  hwx0_6 : ∀ i : grid0.Coords, EltTy.bits .f32 = 32 ∨ (Rect.block (s := S1x50) S1x50.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x50.size a ≤ S1x50.size a
  hwx0_7 : ∀ i : grid0.Coords, EltTy.bits .f32 = 32 ∨ (Rect.block (s := S1x50) S1x50.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x50.size a ≤ S1x50.size a
  hwx0_8 : ∀ i : grid0.Coords, EltTy.bits .f32 = 32 ∨ (Rect.block (s := S1x50) S1x50.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x50.size a ≤ S1x50.size a
  hwx0_9 : ∀ i : grid0.Coords, EltTy.bits .f32 = 32 ∨ (Rect.block (s := S1x50) S1x50.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x50.size a ≤ S1x50.size a
  hwx0_10 : ∀ i : grid0.Coords, EltTy.bits .f32 = 32 ∨ (Rect.block (s := S1x50) S1x50.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x50.size a ≤ S1x50.size a
  hwx0_11 : ∀ i : grid0.Coords, EltTy.bits .f32 = 32 ∨ (Rect.block (s := S1x50) S1x50.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4096x10.size a ≤ S65536x10.size a
  hwx0_12 : ∀ i : grid0.Coords, EltTy.bits .f32 = 32 ∨ (Rect.block (s := S65536x10) S4096x10.size (cc0_transform_12 i) (hinb0_12 i)).WholeWords (EltTy.packing .f32)

variable [Facts₀]

def dot_S4096x784_S784x50_S4096x50_1_0_0_1_n_n : DotDims S4096x784 S784x50 S4096x50 where
  lhsContracting := [1]
  rhsContracting := [0]
  lhsNonContracting := [0]
  rhsNonContracting := [1]
  lhsBatch := []
  rhsBatch := []
  wf := dot_S4096x784_S784x50_S4096x50_1_0_0_1_n_n_wf
def dot_S4096x50_S50x50_S4096x50_1_0_0_1_n_n : DotDims S4096x50 S50x50 S4096x50 where
  lhsContracting := [1]
  rhsContracting := [0]
  lhsNonContracting := [0]
  rhsNonContracting := [1]
  lhsBatch := []
  rhsBatch := []
  wf := dot_S4096x50_S50x50_S4096x50_1_0_0_1_n_n_wf
def dot_S4096x50_S50x10_S4096x10_1_0_0_1_n_n : DotDims S4096x50 S50x10 S4096x10 where
  lhsContracting := [1]
  rhsContracting := [0]
  lhsNonContracting := [0]
  rhsNonContracting := [1]
  lhsBatch := []
  rhsBatch := []
  wf := dot_S4096x50_S50x10_S4096x10_1_0_0_1_n_n_wf

abbrev win0_0 : Pipeline.Window sig grid0 :=
  Pipeline.Window.ofSpec (Memref.whole main_v0) S4096x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S784x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S50x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S50x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x50.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x50.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x50.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x50.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S4096x10.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S65536x28x28 : Shape := ⟨3, ![65536, 28, 28]⟩
abbrev S784x50 : Shape := ⟨2, ![784, 50]⟩
abbrev S50x50 : Shape := ⟨2, ![50, 50]⟩
abbrev S50x10 : Shape := ⟨2, ![50, 10]⟩
abbrev S50 : Shape := ⟨1, ![50]⟩
abbrev S65536x784 : Shape := ⟨2, ![65536, 784]⟩
abbrev S_ : Shape := ⟨0, ![]⟩
abbrev S65536x50 : Shape := ⟨2, ![65536, 50]⟩
abbrev S1x50 : Shape := ⟨2, ![1, 50]⟩
abbrev S65536x10 : Shape := ⟨2, ![65536, 10]⟩
abbrev S65536 : Shape := ⟨1, ![65536]⟩
abbrev S65536x1 : Shape := ⟨2, ![65536, 1]⟩

abbrev nBuf : Space → Nat
  | .hbm => 113
  | .vmem => 0
  | .smem => 0
  | _ => 0

abbrev bufTy : (tb : Table) → Fin (tcTables nBuf tb) → BufTy
  | .hbm, ⟨0, _⟩ => ⟨S65536x28x28, .f32⟩
  | .hbm, ⟨1, _⟩ => ⟨S784x50, .f32⟩
  | .hbm, ⟨2, _⟩ => ⟨S50x50, .f32⟩
  | .hbm, ⟨3, _⟩ => ⟨S50x10, .f32⟩
  | .hbm, ⟨4, _⟩ => ⟨S50, .f32⟩
  | .hbm, ⟨5, _⟩ => ⟨S50, .f32⟩
  | .hbm, ⟨6, _⟩ => ⟨S50, .f32⟩
  | .hbm, ⟨7, _⟩ => ⟨S50, .f32⟩
  | .hbm, ⟨8, _⟩ => ⟨S50, .f32⟩
  | .hbm, ⟨9, _⟩ => ⟨S50, .f32⟩
  | .hbm, ⟨10, _⟩ => ⟨S50, .f32⟩
  | .hbm, ⟨11, _⟩ => ⟨S50, .f32⟩
  | .hbm, ⟨12, _⟩ => ⟨S65536x784, .f32⟩
  | .hbm, ⟨13, _⟩ => ⟨S_, .f32⟩
  | .hbm, ⟨14, _⟩ => ⟨S784x50, .f32⟩
  | .hbm, ⟨15, _⟩ => ⟨S784x50, .i1⟩
  | .hbm, ⟨16, _⟩ => ⟨S_, .f32⟩
  | .hbm, ⟨17, _⟩ => ⟨S_, .f32⟩
  | .hbm, ⟨18, _⟩ => ⟨S784x50, .f32⟩
  | .hbm, ⟨19, _⟩ => ⟨S784x50, .f32⟩
  | .hbm, ⟨20, _⟩ => ⟨S784x50, .f32⟩
  | .hbm, ⟨21, _⟩ => ⟨S784x50, .f32⟩
  | .hbm, ⟨22, _⟩ => ⟨S65536x50, .f32⟩
  | .hbm, ⟨23, _⟩ => ⟨S_, .f32⟩
  | .hbm, ⟨24, _⟩ => ⟨S65536x50, .f32⟩
  | .hbm, ⟨25, _⟩ => ⟨S65536x50, .f32⟩
  | .hbm, ⟨26, _⟩ => ⟨S1x50, .f32⟩
  | .hbm, ⟨27, _⟩ => ⟨S65536x50, .f32⟩
  | .hbm, ⟨28, _⟩ => ⟨S65536x50, .f32⟩
  | .hbm, ⟨29, _⟩ => ⟨S1x50, .f32⟩
  | .hbm, ⟨30, _⟩ => ⟨S65536x50, .f32⟩
  | .hbm, ⟨31, _⟩ => ⟨S65536x50, .f32⟩
  | .hbm, ⟨32, _⟩ => ⟨S_, .f32⟩
  | .hbm, ⟨33, _⟩ => ⟨S50, .f32⟩
  | .hbm, ⟨34, _⟩ => ⟨S50, .f32⟩
  | .hbm, ⟨35, _⟩ => ⟨S50, .f32⟩
  | .hbm, ⟨36, _⟩ => ⟨S1x50, .f32⟩
  | .hbm, ⟨37, _⟩ => ⟨S65536x50, .f32⟩
  | .hbm, ⟨38, _⟩ => ⟨S65536x50, .f32⟩
  | .hbm, ⟨39, _⟩ => ⟨S1x50, .f32⟩
  | .hbm, ⟨40, _⟩ => ⟨S65536x50, .f32⟩
  | .hbm, ⟨41, _⟩ => ⟨S65536x50, .f32⟩
  | .hbm, ⟨42, _⟩ => ⟨S_, .f32⟩
  | .hbm, ⟨43, _⟩ => ⟨S65536x50, .f32⟩
  | .hbm, ⟨44, _⟩ => ⟨S65536x50, .i1⟩
  | .hbm, ⟨45, _⟩ => ⟨S_, .f32⟩
  | .hbm, ⟨46, _⟩ => ⟨S_, .f32⟩
  | .hbm, ⟨47, _⟩ => ⟨S65536x50, .f32⟩
  | .hbm, ⟨48, _⟩ => ⟨S65536x50, .f32⟩
  | .hbm, ⟨49, _⟩ => ⟨S65536x50, .f32⟩
  | .hbm, ⟨50, _⟩ => ⟨S65536x50, .f32⟩
  | .hbm, ⟨51, _⟩ => ⟨S_, .f32⟩
  | .hbm, ⟨52, _⟩ => ⟨S50x50, .f32⟩
  | .hbm, ⟨53, _⟩ => ⟨S50x50, .i1⟩
  | .hbm, ⟨54, _⟩ => ⟨S_, .f32⟩
  | .hbm, ⟨55, _⟩ => ⟨S_, .f32⟩
  | .hbm, ⟨56, _⟩ => ⟨S50x50, .f32⟩
  | .hbm, ⟨57, _⟩ => ⟨S50x50, .f32⟩
  | .hbm, ⟨58, _⟩ => ⟨S50x50, .f32⟩
  | .hbm, ⟨59, _⟩ => ⟨S50x50, .f32⟩
  | .hbm, ⟨60, _⟩ => ⟨S65536x50, .f32⟩
  | .hbm, ⟨61, _⟩ => ⟨S_, .f32⟩
  | .hbm, ⟨62, _⟩ => ⟨S65536x50, .f32⟩
  | .hbm, ⟨63, _⟩ => ⟨S65536x50, .f32⟩
  | .hbm, ⟨64, _⟩ => ⟨S1x50, .f32⟩
  | .hbm, ⟨65, _⟩ => ⟨S65536x50, .f32⟩
  | .hbm, ⟨66, _⟩ => ⟨S65536x50, .f32⟩
  | .hbm, ⟨67, _⟩ => ⟨S1x50, .f32⟩
  | .hbm, ⟨68, _⟩ => ⟨S65536x50, .f32⟩
  | .hbm, ⟨69, _⟩ => ⟨S65536x50, .f32⟩
  | .hbm, ⟨70, _⟩ => ⟨S_, .f32⟩
  | .hbm, ⟨71, _⟩ => ⟨S50, .f32⟩
  | .hbm, ⟨72, _⟩ => ⟨S50, .f32⟩
  | .hbm, ⟨73, _⟩ => ⟨S50, .f32⟩
  | .hbm, ⟨74, _⟩ => ⟨S1x50, .f32⟩
  | .hbm, ⟨75, _⟩ => ⟨S65536x50, .f32⟩
  | .hbm, ⟨76, _⟩ => ⟨S65536x50, .f32⟩
  | .hbm, ⟨77, _⟩ => ⟨S1x50, .f32⟩
  | .hbm, ⟨78, _⟩ => ⟨S65536x50, .f32⟩
  | .hbm, ⟨79, _⟩ => ⟨S65536x50, .f32⟩
  | .hbm, ⟨80, _⟩ => ⟨S_, .f32⟩
  | .hbm, ⟨81, _⟩ => ⟨S65536x50, .f32⟩
  | .hbm, ⟨82, _⟩ => ⟨S65536x50, .i1⟩
  | .hbm, ⟨83, _⟩ => ⟨S_, .f32⟩
  | .hbm, ⟨84, _⟩ => ⟨S_, .f32⟩
  | .hbm, ⟨85, _⟩ => ⟨S65536x50, .f32⟩
  | .hbm, ⟨86, _⟩ => ⟨S65536x50, .f32⟩
  | .hbm, ⟨87, _⟩ => ⟨S65536x50, .f32⟩
  | .hbm, ⟨88, _⟩ => ⟨S65536x50, .f32⟩
  | .hbm, ⟨89, _⟩ => ⟨S_, .f32⟩
  | .hbm, ⟨90, _⟩ => ⟨S50x10, .f32⟩
  | .hbm, ⟨91, _⟩ => ⟨S50x10, .i1⟩
  | .hbm, ⟨92, _⟩ => ⟨S_, .f32⟩
  | .hbm, ⟨93, _⟩ => ⟨S_, .f32⟩
  | .hbm, ⟨94, _⟩ => ⟨S50x10, .f32⟩
  | .hbm, ⟨95, _⟩ => ⟨S50x10, .f32⟩
  | .hbm, ⟨96, _⟩ => ⟨S50x10, .f32⟩
  | .hbm, ⟨97, _⟩ => ⟨S50x10, .f32⟩
  | .hbm, ⟨98, _⟩ => ⟨S65536x10, .f32⟩
  | .hbm, ⟨99, _⟩ => ⟨S_, .f32⟩
  | .hbm, ⟨100, _⟩ => ⟨S65536, .f32⟩
  | .hbm, ⟨101, _⟩ => ⟨S_, .f32⟩
  | .hbm, ⟨102, _⟩ => ⟨S65536, .f32⟩
  | .hbm, ⟨103, _⟩ => ⟨S65536, .f32⟩
  | .hbm, ⟨104, _⟩ => ⟨S65536x1, .f32⟩
  | .hbm, ⟨105, _⟩ => ⟨S65536x10, .f32⟩
  | .hbm, ⟨106, _⟩ => ⟨S65536x10, .f32⟩
  | .hbm, ⟨107, _⟩ => ⟨S65536x10, .f32⟩
  | .hbm, ⟨108, _⟩ => ⟨S_, .f32⟩
  | .hbm, ⟨109, _⟩ => ⟨S65536, .f32⟩
  | .hbm, ⟨110, _⟩ => ⟨S65536x1, .f32⟩
  | .hbm, ⟨111, _⟩ => ⟨S65536x10, .f32⟩
  | .hbm, ⟨112, _⟩ => ⟨S65536x10, .f32⟩
  | _, _ => ⟨S65536x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_v25 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_v28 : Ref sig .tc := ⟨.hbm, 53, rfl⟩
abbrev main_cst_8 : Ref sig .tc := ⟨.hbm, 54, rfl⟩
abbrev main_cst_9 : Ref sig .tc := ⟨.hbm, 55, rfl⟩
abbrev main_call2_v0 : Ref sig .tc := ⟨.hbm, 56, rfl⟩
abbrev main_call2_v1 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_10 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_11 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_12 : Ref sig .tc := ⟨.hbm, 80, rfl⟩
abbrev main_v49 : Ref sig .tc := ⟨.hbm, 81, rfl⟩
abbrev main_v50 : Ref sig .tc := ⟨.hbm, 82, rfl⟩
abbrev main_cst_13 : Ref sig .tc := ⟨.hbm, 83, rfl⟩
abbrev main_cst_14 : Ref sig .tc := ⟨.hbm, 84, rfl⟩
abbrev main_call3_v0 : Ref sig .tc := ⟨.hbm, 85, rfl⟩
abbrev main_call3_v1 : Ref sig .tc := ⟨.hbm, 86, rfl⟩
abbrev main_v51 : Ref sig .tc := ⟨.hbm, 87, rfl⟩
abbrev main_v52 : Ref sig .tc := ⟨.hbm, 88, rfl⟩
abbrev main_cst_15 : Ref sig .tc := ⟨.hbm, 89, rfl⟩
abbrev main_v53 : Ref sig .tc := ⟨.hbm, 90, rfl⟩
abbrev main_v54 : Ref sig .tc := ⟨.hbm, 91, rfl⟩
abbrev main_cst_16 : Ref sig .tc := ⟨.hbm, 92, rfl⟩
abbrev main_cst_17 : Ref sig .tc := ⟨.hbm, 93, rfl⟩
abbrev main_call4_v0 : Ref sig .tc := ⟨.hbm, 94, rfl⟩
abbrev main_call4_v1 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_18 : Ref sig .tc := ⟨.hbm, 99, rfl⟩
abbrev main_v58 : Ref sig .tc := ⟨.hbm, 100, rfl⟩
abbrev main_cst_19 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_20 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩

abbrev nD : Nat := 1
abbrev τ : Topo := Topo.v7x

variable {F : FTy → Type} [FloatOps F]

class Facts₀ : Prop where
  shapeCasts_S65536x28x28_S65536x784 : S65536x28x28.ShapeCasts S65536x784
  bcast_S_S784x50 : S_.BroadcastsInDim S784x50 (![] : Fin 0 → Fin S784x50.rank)
  bcast_S_S65536x50 : S_.BroadcastsInDim S65536x50 (![] : Fin 0 → Fin S65536x50.rank)
  bcast_S50_S1x50_1 : S50.BroadcastsInDim S1x50 (![1] : Fin 1 → Fin S1x50.rank)
  bcast_S1x50_S65536x50_0_1 : S1x50.BroadcastsInDim S65536x50 (![0, 1] : Fin 2 → Fin S65536x50.rank)
  bcast_S_S50 : S_.BroadcastsInDim S50 (![] : Fin 0 → Fin S50.rank)
  bcast_S_S50x50 : S_.BroadcastsInDim S50x50 (![] : Fin 0 → Fin S50x50.rank)
  bcast_S_S50x10 : S_.BroadcastsInDim S50x10 (![] : Fin 0 → Fin S50x10.rank)
  reducesTo_S65536x10_S65536_d1 : S65536x10.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x10_0_1 : S65536x1.BroadcastsInDim S65536x10 (![0, 1] : Fin 2 → Fin S65536x10.rank)
  dot_S65536x784_S784x50_S65536x50_1_0_0_1_n_n_wf : DotDims.WF S65536x784 S784x50 S65536x50 [1] [0] [0] [1] [] []
  dot_S65536x50_S50x50_S65536x50_1_0_0_1_n_n_wf : DotDims.WF S65536x50 S50x50 S65536x50 [1] [0] [0] [1] [] []
  dot_S65536x50_S50x10_S65536x10_1_0_0_1_n_n_wf : DotDims.WF S65536x50 S50x10 S65536x10 [1] [0] [0] [1] [] []

variable [Facts₀]

def dot_S65536x784_S784x50_S65536x50_1_0_0_1_n_n : DotDims S65536x784 S784x50 S65536x50 where
  lhsContracting := [1]
  rhsContracting := [0]
  lhsNonContracting := [0]
  rhsNonContracting := [1]
  lhsBatch := []
  rhsBatch := []
  wf := dot_S65536x784_S784x50_S65536x50_1_0_0_1_n_n_wf
def dot_S65536x50_S50x50_S65536x50_1_0_0_1_n_n : DotDims S65536x50 S50x50 S65536x50 where
  lhsContracting := [1]
  rhsContracting := [0]
  lhsNonContracting := [0]
  rhsNonContracting := [1]
  lhsBatch := []
  rhsBatch := []
  wf := dot_S65536x50_S50x50_S65536x50_1_0_0_1_n_n_wf
def dot_S65536x50_S50x10_S65536x10_1_0_0_1_n_n : DotDims S65536x50 S50x10 S65536x10 where
  lhsContracting := [1]
  rhsContracting := [0]
  lhsNonContracting := [0]
  rhsNonContracting := [1]
  lhsBatch := []
  rhsBatch := []
  wf := dot_S65536x50_S50x10_S65536x10_1_0_0_1_n_n_wf

class Facts : Prop extends Facts₀ where

variable [Facts]
-- ==== Proof.Spec.lean ====
/-
  A binarised three-layer perceptron with a softmax head, as ONE function of a single input row.

  Every weight enters only through its sign (zero counting as positive), written `sgn`. A hidden layer takes a row
  `x`, forms the products `x · sgn W`, rectifies, applies an affine normalisation `g · (h − μ) · (v + ε)^(-1/2) + β`
  column by column, and hands the next layer the SIGN BIT of the result. The head is the softmax of `sgn a₂ · sgn W₃`,
  shifted by the row's largest entry.  An output row depends on one input row only, which is why the network can be
  evaluated on any block of rows independently of the others.

  Also here: on the extended reals a finite number minus itself is zero, so a row of such differences contributes
  nothing to a dot product (`dense_split`): splitting `x` as `x + (x − x)` does not change `x · sgn W`.
-/
import Idealize.ShloMosaic.PureOps.Ideal.Laws
import Idealize.ShloMosaic.Lib.ValueIdx

noncomputable section

open scoped BigOperators

namespace Cert.BinaryNet

open Idealize.ShloMosaic

/-- The bit "`x` is at least zero". -/
def nonneg (x : EReal) : BitVec 1 := Ideal.cmp .oge x (Ideal.ofBits .f32 0x00000000#32)

/-- `+1` where the bit is set, `−1` where it is not. -/
def pm (b : BitVec 1) : EReal := Scalar.select b (Ideal.ofBits .f32 0x3F800000#32) (Ideal.ofBits .f32 0xBF800000#32)

/-- The sign of `x`, zero counting as positive. -/
def sgn (x : EReal) : EReal := pm (nonneg x)

/-- Entry `j` of the row `x` times the matrix of signs of `W`. -/
def dense {K M : ℕ} (x : Fin K → EReal) (W : Fin K → Fin M → EReal) (j : Fin M) : EReal := ∑ k : Fin K, x k * sgn (W k j)

/-- Rectify, then normalise: `g · (max h 0 − μ) · (v + ε)^(-1/2) + β`. -/
def norm (h g μ v β : EReal) : EReal :=
  g * (max h (Ideal.ofBits .f32 0x00000000#32) - μ) * Ideal.rsqrt (v + Ideal.ofBits .f32 0x3A83126F#32) + β

/-- One hidden layer: the sign bit of the normalised, rectified products, at column `j`. -/
def layer {K M : ℕ} (x : Fin K → EReal) (W : Fin K → Fin M → EReal) (g μ v β : Fin M → EReal) (j : Fin M) : BitVec 1 :=
  nonneg (norm (dense x W j) (g j) (μ j) (v j) (β j))

/-- The softmax of a row, shifted by the row's largest entry (the fold of `max` starting from the word of `−∞`). -/
def softmax {M : ℕ} (z : Fin M → EReal) (c : Fin M) : EReal :=
  Ideal.div (Ideal.exp (z c - (Finset.univ : Finset (Fin M)).fold max (Ideal.ofBits .f32 0xFF800000#32) z))
    (∑ k : Fin M, Ideal.exp (z k - (Finset.univ : Finset (Fin M)).fold max (Ideal.ofBits .f32 0xFF800000#32) z))

/-- The head: the softmax of the signs `±1` of the second hidden layer's bits times the signs of `W₃`. -/
def head {K M : ℕ} (b : Fin K → BitVec 1) (W : Fin K → Fin M → EReal) (c : Fin M) : EReal :=
  softmax (dense (fun k => pm (b k)) W) c

/-- The whole network on one row. -/
def net {K H M : ℕ} (x : Fin K → EReal) (W1 : Fin K → Fin H → EReal) (W2 : Fin H → Fin H → EReal) (W3 : Fin H → Fin M → EReal)
    (g1 β1 μ1 v1 g2 β2 μ2 v2 : Fin H → EReal) (c : Fin M) : EReal :=
  head (layer (fun k => pm (layer x W1 g1 μ1 v1 β1 k)) W2 g2 μ2 v2 β2) W3 c

/-- A finite extended real minus itself is zero. -/
theorem sub_self_of_finite {x : EReal} (h1 : x ≠ ⊤) (h2 : x ≠ ⊥) : x - x = 0 := by
  induction x using EReal.rec with
  | bot => exact absurd rfl h2
  | top => exact absurd rfl h1
  | coe r => rw [← EReal.coe_sub, sub_self, EReal.coe_zero]

/-- Splitting a finite row as `x + (x − x)` leaves its products with any matrix as they were: the second summand's
    products are all `0 · s = 0`. -/
theorem sum_split {K : ℕ} (x s : Fin K → EReal) (hx : ∀ k, x k ≠ ⊤ ∧ x k ≠ ⊥) :
    (∑ k : Fin K, x k * s k) + (∑ k : Fin K, (x k - x k) * s k) = ∑ k : Fin K, x k * s k := by
  have h0 : (∑ k : Fin K, (x k - x k) * s k) = 0 :=
    Finset.sum_eq_zero fun k _ => by rw [sub_self_of_finite (hx k).1 (hx k).2, zero_mul]
  rw [h0, add_zero]

/-- The largest entry of a row, folded from any starting value, is at least that value: taking the maximum with it
    again changes nothing. -/
theorem max_fold_self {M : ℕ} (b : EReal) (z : Fin M → EReal) :
    max b ((Finset.univ : Finset (Fin M)).fold max b z) = (Finset.univ : Finset (Fin M)).fold max b z :=
  max_eq_right ((Finset.le_fold_max b).mpr (Or.inl le_rfl))

end Cert.BinaryNet

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.KernelDots.lean ====
/-
  The three matrix products of the kernel body, each read at an entry.

  Each product contracts the columns of its left operand against the rows of its right operand and starts from a zero
  accumulator, so entry (p, j) is the plain sum over k of left (p, k) · right (k, j).
-/
import proofs.«144777_j48653389529541_2_alg».proof.Proof.Gen.KernelIdeal
import proofs.«144777_j48653389529541_2_alg».proof.Proof.LibPlainDot

noncomputable section

open scoped BigOperators

namespace Cert.KernelIdeal.Row

open Cert.KernelIdeal Idealize.ShloMosaic Idealize.ShloMosaic.ValueIdx

theorem d1_l0 (i : S4096x50.Idx) (q : dot_S4096x784_S784x50_S4096x50_1_0_0_1_n_n.contr.Idx) : (dot_S4096x784_S784x50_S4096x50_1_0_0_1_n_n.lhsIdx i q 0).val = (i 0).val := by
  unfold DotDims.lhsIdx
  rw [dif_neg (show ¬(0 : Fin S4096x784.rank) ∈ dot_S4096x784_S784x50_S4096x50_1_0_0_1_n_n.lhsBatch by decide), dif_pos (show (0 : Fin S4096x784.rank) ∈ dot_S4096x784_S784x50_S4096x50_1_0_0_1_n_n.lhsNonContracting by decide)]
  rfl
theorem d1_l1 (i : S4096x50.Idx) (q : dot_S4096x784_S784x50_S4096x50_1_0_0_1_n_n.contr.Idx) : (dot_S4096x784_S784x50_S4096x50_1_0_0_1_n_n.lhsIdx i q 1).val = (q ⟨0, by decide⟩).val :=
  dot_S4096x784_S784x50_S4096x50_1_0_0_1_n_n.lhsIdx_val_of_single rfl i q
theorem d1_r0 (i : S4096x50.Idx) (q : dot_S4096x784_S784x50_S4096x50_1_0_0_1_n_n.contr.Idx) : (dot_S4096x784_S784x50_S4096x50_1_0_0_1_n_n.rhsIdx i q 0).val = (q ⟨0, by decide⟩).val :=
  dot_S4096x784_S784x50_S4096x50_1_0_0_1_n_n.rhsIdx_val_of_single rfl i q
theorem d1_r1 (i : S4096x50.Idx) (q : dot_S4096x784_S784x50_S4096x50_1_0_0_1_n_n.contr.Idx) : (dot_S4096x784_S784x50_S4096x50_1_0_0_1_n_n.rhsIdx i q 1).val = (i 1).val := by
  unfold DotDims.rhsIdx
  rw [dif_neg (show ¬(1 : Fin S784x50.rank) ∈ dot_S4096x784_S784x50_S4096x50_1_0_0_1_n_n.rhsBatch by decide), dif_pos (show (1 : Fin S784x50.rank) ∈ dot_S4096x784_S784x50_S4096x50_1_0_0_1_n_n.rhsNonContracting by decide)]
  rfl

theorem d2_l0 (i : S4096x50.Idx) (q : dot_S4096x50_S50x50_S4096x50_1_0_0_1_n_n.contr.Idx) : (dot_S4096x50_S50x50_S4096x50_1_0_0_1_n_n.lhsIdx i q 0).val = (i 0).val := by
  unfold DotDims.lhsIdx
  rw [dif_neg (show ¬(0 : Fin S4096x50.rank) ∈ dot_S4096x50_S50x50_S4096x50_1_0_0_1_n_n.lhsBatch by decide), dif_pos (show (0 : Fin S4096x50.rank) ∈ dot_S4096x50_S50x50_S4096x50_1_0_0_1_n_n.lhsNonContracting by decide)]
  rfl
theorem d2_l1 (i : S4096x50.Idx) (q : dot_S4096x50_S50x50_S4096x50_1_0_0_1_n_n.contr.Idx) : (dot_S4096x50_S50x50_S4096x50_1_0_0_1_n_n.lhsIdx i q 1).val = (q ⟨0, by decide⟩).val :=
  dot_S4096x50_S50x50_S4096x50_1_0_0_1_n_n.lhsIdx_val_of_single rfl i q
theorem d2_r0 (i : S4096x50.Idx) (q : dot_S4096x50_S50x50_S4096x50_1_0_0_1_n_n.contr.Idx) : (dot_S4096x50_S50x50_S4096x50_1_0_0_1_n_n.rhsIdx i q 0).val = (q ⟨0, by decide⟩).val :=
  dot_S4096x50_S50x50_S4096x50_1_0_0_1_n_n.rhsIdx_val_of_single rfl i q
theorem d2_r1 (i : S4096x50.Idx) (q : dot_S4096x50_S50x50_S4096x50_1_0_0_1_n_n.contr.Idx) : (dot_S4096x50_S50x50_S4096x50_1_0_0_1_n_n.rhsIdx i q 1).val = (i 1).val := by
  unfold DotDims.rhsIdx
  rw [dif_neg (show ¬(1 : Fin S50x50.rank) ∈ dot_S4096x50_S50x50_S4096x50_1_0_0_1_n_n.rhsBatch by decide), dif_pos (show (1 : Fin S50x50.rank) ∈ dot_S4096x50_S50x50_S4096x50_1_0_0_1_n_n.rhsNonContracting by decide)]
  rfl

theorem d3_l0 (i : S4096x10.Idx) (q : dot_S4096x50_S50x10_S4096x10_1_0_0_1_n_n.contr.Idx) : (dot_S4096x50_S50x10_S4096x10_1_0_0_1_n_n.lhsIdx i q 0).val = (i 0).val := by
  unfold DotDims.lhsIdx
  rw [dif_neg (show ¬(0 : Fin S4096x50.rank) ∈ dot_S4096x50_S50x10_S4096x10_1_0_0_1_n_n.lhsBatch by decide), dif_pos (show (0 : Fin S4096x50.rank) ∈ dot_S4096x50_S50x10_S4096x10_1_0_0_1_n_n.lhsNonContracting by decide)]
  rfl
theorem d3_l1 (i : S4096x10.Idx) (q : dot_S4096x50_S50x10_S4096x10_1_0_0_1_n_n.contr.Idx) : (dot_S4096x50_S50x10_S4096x10_1_0_0_1_n_n.lhsIdx i q 1).val = (q ⟨0, by decide⟩).val :=
  dot_S4096x50_S50x10_S4096x10_1_0_0_1_n_n.lhsIdx_val_of_single rfl i q
theorem d3_r0 (i : S4096x10.Idx) (q : dot_S4096x50_S50x10_S4096x10_1_0_0_1_n_n.contr.Idx) : (dot_S4096x50_S50x10_S4096x10_1_0_0_1_n_n.rhsIdx i q 0).val = (q ⟨0, by decide⟩).val :=
  dot_S4096x50_S50x10_S4096x10_1_0_0_1_n_n.rhsIdx_val_of_single rfl i q
theorem d3_r1 (i : S4096x10.Idx) (q : dot_S4096x50_S50x10_S4096x10_1_0_0_1_n_n.contr.Idx) : (dot_S4096x50_S50x10_S4096x10_1_0_0_1_n_n.rhsIdx i q 1).val = (i 1).val := by
  unfold DotDims.rhsIdx
  rw [dif_neg (show ¬(1 : Fin S50x10.rank) ∈ dot_S4096x50_S50x10_S4096x10_1_0_0_1_n_n.rhsBatch by decide), dif_pos (show (1 : Fin S50x10.rank) ∈ dot_S4096x50_S50x10_S4096x10_1_0_0_1_n_n.rhsNonContracting by decide)]
  rfl

/-- The first layer's product, 4096×784 by 784×50, at entry (p, j). -/
theorem mm1_apply (l : FVec Ideal S4096x784 .bf16) (w : FVec Ideal S784x50 .bf16) (p : Fin 4096) (j : Fin 50) :
    matmul dot_S4096x784_S784x50_S4096x50_1_0_0_1_n_n none l w (constant S4096x50 .f32 0x00000000#32) (ix2 p j)
      = ∑ k : Fin 784, (l (ix2 p k) : EReal) * (w (ix2 k j) : EReal) :=
  Cert.PlainDot.matmul_zero_apply dot_S4096x784_S784x50_S4096x50_1_0_0_1_n_n rfl rfl d1_l0 d1_l1 d1_r0 d1_r1 none l w p j

/-- The second layer's product, 4096×50 by 50×50, at entry (p, j). -/
theorem mm2_apply (l : FVec Ideal S4096x50 .bf16) (w : FVec Ideal S50x50 .bf16) (p : Fin 4096) (j : Fin 50) :
    matmul dot_S4096x50_S50x50_S4096x50_1_0_0_1_n_n none l w (constant S4096x50 .f32 0x00000000#32) (ix2 p j)
      = ∑ k : Fin 50, (l (ix2 p k) : EReal) * (w (ix2 k j) : EReal) :=
  Cert.PlainDot.matmul_zero_apply dot_S4096x50_S50x50_S4096x50_1_0_0_1_n_n rfl rfl d2_l0 d2_l1 d2_r0 d2_r1 none l w p j

/-- The head's product, 4096×50 by 50×10, at entry (p, c). -/
theorem mm3_apply (l : FVec Ideal S4096x50 .bf16) (w : FVec Ideal S50x10 .bf16) (p : Fin 4096) (c : Fin 10) :
    matmul dot_S4096x50_S50x10_S4096x10_1_0_0_1_n_n none l w (constant S4096x10 .f32 0x00000000#32) (ix2 p c)
      = ∑ k : Fin 50, (l (ix2 p k) : EReal) * (w (ix2 k c) : EReal) :=
  Cert.PlainDot.matmul_zero_apply dot_S4096x50_S50x10_S4096x10_1_0_0_1_n_n rfl rfl d3_l0 d3_l1 d3_r0 d3_r1 none l w p c

end Cert.KernelIdeal.Row

end
-- ==== Proof.LibRowMax.lean ====
/-
  The largest entry of each row of a matrix, read at an index — general in the extents.

  Over the extended reals the maximum of an `n × m` matrix along its second axis reads, at `p`, the fold of `max`, from the
  accumulator's value, over the entries `(p, k)` of row `p`: `max` is commutative and associative, so the order in which the
  row is folded does not matter.
-/
import Idealize.ShloMosaic.Lib.ValueIdx
import Idealize.ShloMosaic.PureOps.Ideal.Laws

noncomputable section

namespace Cert.LibRowMax

open Idealize.ShloMosaic Idealize.ShloMosaic.ValueIdx

/-- Over the extended reals the maximum of an `n × m` matrix along its second axis reads, at `p`, the fold of `max` from the
    accumulator's value over `k` of the entries `(p, k)`. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin m)).fold max (Ideal.ofBits φ acc) (fun k : Fin m => src (ix2 p k)) := by
  refine (Ideal.multiReduction_maximumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold max (Ideal.ofBits φ acc) f (Finset.univ : Finset (Fin m))) hf

end Cert.LibRowMax

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.KernelRow.lean ====
/-
  The kernel body's three stages, each read at one entry of a block of 4096 rows, as the network's layers on that row.

  The body works on whole blocks; every operation in it is either entry by entry, a spread of one row of parameters
  over all 4096 rows, a matrix product, or a maximum or a sum along a row.  So entry (p, j) of each stage depends on
  row p of the block only, and is the corresponding layer of the network evaluated on that row.  The first stage forms
  its products twice — once with the row and once with the row minus itself — and adds them; for a finite row the second
  product vanishes.
-/
import proofs.«144777_j48653389529541_2_alg».proof.Proof.Gen.KernelIdeal.Skeleton
import proofs.«144777_j48653389529541_2_alg».proof.Proof.Spec
import proofs.«144777_j48653389529541_2_alg».proof.Proof.KernelDots
import proofs.«144777_j48653389529541_2_alg».proof.Proof.LibRowMax
import proofs.«144777_j48653389529541_2_alg».proof.Proof.LibColumns
import Idealize.ShloMosaic.Lib.ValueLayout

noncomputable section

open scoped BigOperators

namespace Cert.KernelIdeal.Row

open Cert.KernelIdeal Cert.KernelIdeal.Gen Idealize.ShloMosaic Idealize.ShloMosaic.ValueIdx Cert.BinaryNet

/-- One row of 50 parameters, spread over 4096 rows, reads at (p, j) the parameter j. -/
theorem spread_apply (v : Vec Ideal S1x50 .f32) (h1 : S1x50.ShapeCasts S1x50) (h2 : S1x50.Broadcasts S4096x50)
    (p : Fin 4096) (j : Fin 50) :
    broadcastTo S4096x50 (shapeCast S1x50 v h1) h2 (ix2 p j) = v (ix2 (0 : Fin 1) j) := by
  rw [shapeCast_self]
  exact broadcastTo_1b_ab_apply v h2 p j

/-- The first stage at (p, j): the first hidden layer's sign bit on row p of the block. -/
theorem pay2_apply (v0 : Vec Ideal S4096x784 .f32) (v2 : Vec Ideal S784x50 .f32) (v18 v20 v26 v33 : Vec Ideal S1x50 .f32)
    (p : Fin 4096) (j : Fin 50) (hx : ∀ k : Fin 784, (v0 (ix2 p k) : EReal) ≠ ⊤ ∧ (v0 (ix2 p k) : EReal) ≠ ⊥) :
    k0_pay2 (F := Ideal) v0 v2 v18 v20 v26 v33 (ix2 p j)
      = layer (fun k => (v0 (ix2 p k) : EReal)) (fun k j => (v2 (ix2 k j) : EReal)) (fun j => (v18 (ix2 (0 : Fin 1) j) : EReal))
          (fun j => (v20 (ix2 (0 : Fin 1) j) : EReal)) (fun j => (v26 (ix2 (0 : Fin 1) j) : EReal)) (fun j => (v33 (ix2 (0 : Fin 1) j) : EReal)) j := by
  unfold k0_pay2
  simp only [shapeCast_self, cmpf_apply, addf_apply, mulf_apply, subf_apply, maximumf_apply, broadcast_apply,
    broadcastTo_1b_ab_apply, mm1_apply, truncf_apply, select_apply]
  rw [sum_split (fun k : Fin 784 => (v0 (ix2 p k) : EReal)) _ hx]
  rfl

/-- The second stage at (p, j): the sign `±1` of the second hidden layer's bit, the layer fed with the signs of the first
    stage's bits on row p. -/
theorem pay3_apply (v38 : IVec S4096x50 1) (v43 : Vec Ideal S50x50 .f32) (v53 v55 v61 v68 : Vec Ideal S1x50 .f32)
    (p : Fin 4096) (j : Fin 50) :
    (k0_pay3 (F := Ideal) v38 v43 v53 v55 v61 v68 (ix2 p j) : EReal)
      = pm (layer (fun k => pm (v38 (ix2 p k))) (fun k j => (v43 (ix2 k j) : EReal)) (fun j => (v53 (ix2 (0 : Fin 1) j) : EReal))
          (fun j => (v55 (ix2 (0 : Fin 1) j) : EReal)) (fun j => (v61 (ix2 (0 : Fin 1) j) : EReal)) (fun j => (v68 (ix2 (0 : Fin 1) j) : EReal)) j) := by
  unfold k0_pay3
  simp only [shapeCast_self, cmpf_apply, addf_apply, mulf_apply, subf_apply, maximumf_apply, broadcast_apply,
    broadcastTo_1b_ab_apply, mm2_apply, truncf_apply, select_apply]
  rfl

/-- The largest entry of each row of a 4096×10 block, kept as a column and spread back over the 10 columns, reads at
    (p, c) the fold of `max` over row p. -/
theorem rowmax_spread_apply (src : FVec Ideal S4096x10 .f32) (hφ : FKind.Formats .f32)
    (hacc : (0xFF800000#32 : BitVec 32) = 0xFF800000#32) (p : Fin 4096) (c : Fin 10) :
    broadcastTo S4096x10 (shapeCast S4096x1 (multiReduction .maximumf [1] S4096 src 0xFF800000#32 reduces_S4096x10_S4096 hφ hacc)
        shapeCasts_S4096_S4096x1) broadcasts_S4096x1_S4096x10 (ix2 p c)
      = (Finset.univ : Finset (Fin 10)).fold max (Ideal.ofBits .f32 0xFF800000#32) (fun k : Fin 10 => (src (ix2 p k) : EReal)) := by
  rw [Cert.LibColumns.broadcastTo_a1_ab_apply, Cert.LibColumns.shapeCast_a_a1_apply]
  exact Cert.LibRowMax.rowMax_apply src _ reduces_S4096x10_S4096 hφ hacc p

/-- The sum of each row of a 4096×10 block, kept as a column and spread back, reads at (p, c) the sum over row p. -/
theorem rowsum_spread_apply (src : FVec Ideal S4096x10 .f32) (hφ : FKind.Formats .f32)
    (hacc : (0x00000000#32 : BitVec 32) = 0x00000000#32) (p : Fin 4096) (c : Fin 10) :
    broadcastTo S4096x10 (shapeCast S4096x1 (multiReduction .add [1] S4096 src 0x00000000#32 reduces_S4096x10_S4096 hφ hacc)
        shapeCasts_S4096_S4096x1) broadcasts_S4096x1_S4096x10 (ix2 p c)
      = ∑ k : Fin 10, (src (ix2 p k) : EReal) := by
  rw [Cert.LibColumns.broadcastTo_a1_ab_apply, Cert.LibColumns.shapeCast_a_a1_apply]
  exact Cert.LibColumns.rowSum_apply src _ reduces_S4096x10_S4096 hφ hacc p

/-- The exponential of a block, entry by entry. -/
theorem exp_apply {s : Shape} (a : FVec Ideal s .f32) (i : s.Idx) : exp a i = Ideal.exp (a i) := rfl

/-- The third stage at (p, c): the softmax of row p of the second stage's signs times the signs of the last weights. -/
theorem pay1_apply (v77 : FVec Ideal S4096x50 .bf16) (v78 : Vec Ideal S50x10 .f32) (p : Fin 4096) (c : Fin 10) :
    (k0_pay1 (F := Ideal) v77 v78 (ix2 p c) : EReal)
      = softmax (dense (fun k => (v77 (ix2 p k) : EReal)) (fun k c => (v78 (ix2 k c) : EReal))) c := by
  unfold k0_pay1
  simp only [divf_apply, exp_apply, subf_apply, rowmax_spread_apply _ (Or.inl rfl) rfl, rowsum_spread_apply _ (Or.inl rfl) rfl, mm3_apply, truncf_apply, select_apply,
    cmpf_apply, broadcast_apply]
  rfl

end Cert.KernelIdeal.Row

end
-- ==== Proof.KernelBlocks.lean ====
/-
  Each input window's block at a grid point, read off the array it is cut from.

  The grid has 16 points. At point t the input window is rows 4096·t … 4096·t + 4095 of the flattened input, the output
  window the same rows of the result; every other window (the three weight matrices and the eight parameter rows) is
  its whole array at every point.
-/
import proofs.«144777_j48653389529541_2_alg».proof.Proof.Gen.KernelIdeal.Frame
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The input and output windows move together down the rows, one block of 4096 rows per grid point, and never sideways. -/
theorem idx_rows : ∀ t : Fin cfg0.N, win0_0.index t (0 : Fin 2) = win0_12.index t (0 : Fin 2) ∧ win0_0.index t (1 : Fin 2) = 0
    ∧ win0_12.index t (1 : Fin 2) = 0 ∧ win0_12.index t (0 : Fin 2) ≤ 15 :=
  (by decide +kernel : ∀ t : Fin grid0.N, win0_0.index t (0 : Fin 2) = win0_12.index t (0 : Fin 2) ∧ win0_0.index t (1 : Fin 2) = 0
    ∧ win0_12.index t (1 : Fin 2) = 0 ∧ win0_12.index t (0 : Fin 2) ≤ 15)

/-- Every block of 4096 rows is some grid point's. -/
theorem idx_onto : ∀ q0 : Fin 16, ∃ t : Fin cfg0.N, win0_12.index t = ![q0.val, 0] :=
  (by decide +kernel : ∀ q0 : Fin 16, ∃ t : Fin grid0.N, win0_12.index t = ![q0.val, 0])

theorem idx_whole1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_whole2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_whole3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_whole4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_whole5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_whole6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_whole7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_whole8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_whole9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx_whole10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx_whole11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- Row p, column k of the input window's block at point t is row 4096·(block index) + p of the flattened input. -/
theorem iblk0_apply (c : Dev nD) (t : Fin cfg0.N) (p : Fin 4096) (k : Fin 784) (r : Fin 65536)
    (hr : r.val = win0_12.index t (0 : Fin 2) * 4096 + p.val) :
    (iblk m c 0 t : Vec Ideal S4096x784 .f32) (ix2 p k) = V m c main_v0 (ix2 r k) := by
  obtain ⟨e0, e1, -, -⟩ := idx_rows t
  unfold iblk
  rw [View.read_apply]
  show V m c main_v0 _ = V m c main_v0 (ix2 r k)
  refine congrArg _ (funext fun a => Fin.ext ?_)
  match a with
  | ⟨0, _⟩ => show win0_0.index t 0 * 4096 + 1 * p.val = r.val; rw [e0, hr]; omega
  | ⟨1, _⟩ => show win0_0.index t 1 * 784 + 1 * k.val = k.val; rw [e1]; omega

/-- Window 1 holds its whole array at every grid point. -/
theorem iblk1_apply (c : Dev nD) (t : Fin cfg0.N) (y : S784x50.Idx) :
    (iblk m c 1 t : Vec Ideal S784x50 .f32) y = V m c main_arg1 y := by
  obtain ⟨e0, e1⟩ := idx_whole1 t
  unfold iblk
  rw [View.read_apply]
  show V m c main_arg1 _ = V m c main_arg1 y
  refine congrArg _ (funext fun a => Fin.ext ?_)
  match a with
  | ⟨0, _⟩ => show win0_1.index t 0 * 784 + 1 * (y 0).val = (y 0).val; rw [e0]; omega
  | ⟨1, _⟩ => show win0_1.index t 1 * 50 + 1 * (y 1).val = (y 1).val; rw [e1]; omega

/-- Window 2 holds its whole array at every grid point. -/
theorem iblk2_apply (c : Dev nD) (t : Fin cfg0.N) (y : S50x50.Idx) :
    (iblk m c 2 t : Vec Ideal S50x50 .f32) y = V m c main_arg2 y := by
  obtain ⟨e0, e1⟩ := idx_whole2 t
  unfold iblk
  rw [View.read_apply]
  show V m c main_arg2 _ = V m c main_arg2 y
  refine congrArg _ (funext fun a => Fin.ext ?_)
  match a with
  | ⟨0, _⟩ => show win0_2.index t 0 * 50 + 1 * (y 0).val = (y 0).val; rw [e0]; omega
  | ⟨1, _⟩ => show win0_2.index t 1 * 50 + 1 * (y 1).val = (y 1).val; rw [e1]; omega

/-- Window 3 holds its whole array at every grid point. -/
theorem iblk3_apply (c : Dev nD) (t : Fin cfg0.N) (y : S50x10.Idx) :
    (iblk m c 3 t : Vec Ideal S50x10 .f32) y = V m c main_arg3 y := by
  obtain ⟨e0, e1⟩ := idx_whole3 t
  unfold iblk
  rw [View.read_apply]
  show V m c main_arg3 _ = V m c main_arg3 y
  refine congrArg _ (funext fun a => Fin.ext ?_)
  match a with
  | ⟨0, _⟩ => show win0_3.index t 0 * 50 + 1 * (y 0).val = (y 0).val; rw [e0]; omega
  | ⟨1, _⟩ => show win0_3.index t 1 * 10 + 1 * (y 1).val = (y 1).val; rw [e1]; omega

/-- Window 4 holds its whole array at every grid point. -/
theorem iblk4_apply (c : Dev nD) (t : Fin cfg0.N) (y : S1x50.Idx) :
    (iblk m c 4 t : Vec Ideal S1x50 .f32) y = V m c main_v1 y := by
  obtain ⟨e0, e1⟩ := idx_whole4 t
  unfold iblk
  rw [View.read_apply]
  show V m c main_v1 _ = V m c main_v1 y
  refine congrArg _ (funext fun a => Fin.ext ?_)
  match a with
  | ⟨0, _⟩ => show win0_4.index t 0 * 1 + 1 * (y 0).val = (y 0).val; rw [e0]; omega
  | ⟨1, _⟩ => show win0_4.index t 1 * 50 + 1 * (y 1).val = (y 1).val; rw [e1]; omega

/-- Window 5 holds its whole array at every grid point. -/
theorem iblk5_apply (c : Dev nD) (t : Fin cfg0.N) (y : S1x50.Idx) :
    (iblk m c 5 t : Vec Ideal S1x50 .f32) y = V m c main_v2 y := by
  obtain ⟨e0, e1⟩ := idx_whole5 t
  unfold iblk
  rw [View.read_apply]
  show V m c main_v2 _ = V m c main_v2 y
  refine congrArg _ (funext fun a => Fin.ext ?_)
  match a with
  | ⟨0, _⟩ => show win0_5.index t 0 * 1 + 1 * (y 0).val = (y 0).val; rw [e0]; omega
  | ⟨1, _⟩ => show win0_5.index t 1 * 50 + 1 * (y 1).val = (y 1).val; rw [e1]; omega

/-- Window 6 holds its whole array at every grid point. -/
theorem iblk6_apply (c : Dev nD) (t : Fin cfg0.N) (y : S1x50.Idx) :
    (iblk m c 6 t : Vec Ideal S1x50 .f32) y = V m c main_v3 y := by
  obtain ⟨e0, e1⟩ := idx_whole6 t
  unfold iblk
  rw [View.read_apply]
  show V m c main_v3 _ = V m c main_v3 y
  refine congrArg _ (funext fun a => Fin.ext ?_)
  match a with
  | ⟨0, _⟩ => show win0_6.index t 0 * 1 + 1 * (y 0).val = (y 0).val; rw [e0]; omega
  | ⟨1, _⟩ => show win0_6.index t 1 * 50 + 1 * (y 1).val = (y 1).val; rw [e1]; omega

/-- Window 7 holds its whole array at every grid point. -/
theorem iblk7_apply (c : Dev nD) (t : Fin cfg0.N) (y : S1x50.Idx) :
    (iblk m c 7 t : Vec Ideal S1x50 .f32) y = V m c main_v4 y := by
  obtain ⟨e0, e1⟩ := idx_whole7 t
  unfold iblk
  rw [View.read_apply]
  show V m c main_v4 _ = V m c main_v4 y
  refine congrArg _ (funext fun a => Fin.ext ?_)
  match a with
  | ⟨0, _⟩ => show win0_7.index t 0 * 1 + 1 * (y 0).val = (y 0).val; rw [e0]; omega
  | ⟨1, _⟩ => show win0_7.index t 1 * 50 + 1 * (y 1).val = (y 1).val; rw [e1]; omega

/-- Window 8 holds its whole array at every grid point. -/
theorem iblk8_apply (c : Dev nD) (t : Fin cfg0.N) (y : S1x50.Idx) :
    (iblk m c 8 t : Vec Ideal S1x50 .f32) y = V m c main_v5 y := by
  obtain ⟨e0, e1⟩ := idx_whole8 t
  unfold iblk
  rw [View.read_apply]
  show V m c main_v5 _ = V m c main_v5 y
  refine congrArg _ (funext fun a => Fin.ext ?_)
  match a with
  | ⟨0, _⟩ => show win0_8.index t 0 * 1 + 1 * (y 0).val = (y 0).val; rw [e0]; omega
  | ⟨1, _⟩ => show win0_8.index t 1 * 50 + 1 * (y 1).val = (y 1).val; rw [e1]; omega

/-- Window 9 holds its whole array at every grid point. -/
theorem iblk9_apply (c : Dev nD) (t : Fin cfg0.N) (y : S1x50.Idx) :
    (iblk m c 9 t : Vec Ideal S1x50 .f32) y = V m c main_v6 y := by
  obtain ⟨e0, e1⟩ := idx_whole9 t
  unfold iblk
  rw [View.read_apply]
  show V m c main_v6 _ = V m c main_v6 y
  refine congrArg _ (funext fun a => Fin.ext ?_)
  match a with
  | ⟨0, _⟩ => show win0_9.index t 0 * 1 + 1 * (y 0).val = (y 0).val; rw [e0]; omega
  | ⟨1, _⟩ => show win0_9.index t 1 * 50 + 1 * (y 1).val = (y 1).val; rw [e1]; omega

/-- Window 10 holds its whole array at every grid point. -/
theorem iblk10_apply (c : Dev nD) (t : Fin cfg0.N) (y : S1x50.Idx) :
    (iblk m c 10 t : Vec Ideal S1x50 .f32) y = V m c main_v7 y := by
  obtain ⟨e0, e1⟩ := idx_whole10 t
  unfold iblk
  rw [View.read_apply]
  show V m c main_v7 _ = V m c main_v7 y
  refine congrArg _ (funext fun a => Fin.ext ?_)
  match a with
  | ⟨0, _⟩ => show win0_10.index t 0 * 1 + 1 * (y 0).val = (y 0).val; rw [e0]; omega
  | ⟨1, _⟩ => show win0_10.index t 1 * 50 + 1 * (y 1).val = (y 1).val; rw [e1]; omega

/-- Window 11 holds its whole array at every grid point. -/
theorem iblk11_apply (c : Dev nD) (t : Fin cfg0.N) (y : S1x50.Idx) :
    (iblk m c 11 t : Vec Ideal S1x50 .f32) y = V m c main_v8 y := by
  obtain ⟨e0, e1⟩ := idx_whole11 t
  unfold iblk
  rw [View.read_apply]
  show V m c main_v8 _ = V m c main_v8 y
  refine congrArg _ (funext fun a => Fin.ext ?_)
  match a with
  | ⟨0, _⟩ => show win0_11.index t 0 * 1 + 1 * (y 0).val = (y 0).val; rw [e0]; omega
  | ⟨1, _⟩ => show win0_11.index t 1 * 50 + 1 * (y 1).val = (y 1).val; rw [e1]; omega

/-- Where entry (p, q) of the output window's block at point t sits in the result. -/
theorem out_emb (t : Fin cfg0.N) (p : Fin 4096) (q : Fin 10) (r : Fin 65536)
    (hr : r.val = win0_12.index t (0 : Fin 2) * 4096 + p.val) :
    ((cfg0.win 12).blk t).view.emb (ix2 p q) = (ix2 r q : S65536x10.Idx) := by
  obtain ⟨-, -, e2, -⟩ := idx_rows t
  refine funext fun a => Fin.ext ?_
  match a with
  | ⟨0, _⟩ => show win0_12.index t 0 * 4096 + 1 * p.val = r.val; rw [hr]; omega
  | ⟨1, _⟩ => show win0_12.index t 1 * 10 + 1 * q.val = q.val; rw [e2]; omega

/-- An index of the result is in point t's block iff each coordinate is in the block's range on its axis. -/
theorem mem_blk (t : Fin cfg0.N) (i : S65536x10.Idx) :
    i ∈ ((cfg0.win 12).blk t).view.set ↔ ∀ a : Fin 2, win0_12.index t a * S4096x10.size a ≤ (i a).val ∧ (i a).val < win0_12.index t a * S4096x10.size a + S4096x10.size a := by
  show i ∈ ((View.whole main_v9).slice (win0_12.rect t)).set ↔ _
  rw [View.set_slice_whole, Rect.mem_set_unit]
  exact Iff.rfl

/-- The 16 blocks cover the result: row r lies in the block of the point whose block index is r / 4096. -/
theorem cover (i : S65536x10.Idx) : ∃ t : Fin cfg0.N, (cfg0.win 12).flush t = true ∧ i ∈ ((cfg0.win 12).blk t).view.set := by
  have hi0 : (i 0).val < 65536 := (i 0).isLt
  have hi1 : (i 1).val < 10 := (i 1).isLt
  obtain ⟨t, ht⟩ := idx_onto ⟨(i 0).val / 4096, by omega⟩
  have q0 : win0_12.index t (0 : Fin 2) = (i 0).val / 4096 := congrFun ht 0
  have q1 : win0_12.index t (1 : Fin 2) = 0 := congrFun ht 1
  refine ⟨t, flush0_12 t, ?_⟩
  rw [mem_blk]
  intro a
  match a with
  | ⟨0, _⟩ => show win0_12.index t (0 : Fin 2) * 4096 ≤ (i 0).val ∧ (i 0).val < win0_12.index t (0 : Fin 2) * 4096 + 4096; omega
  | ⟨1, _⟩ => show win0_12.index t (1 : Fin 2) * 10 ≤ (i 1).val ∧ (i 1).val < win0_12.index t (1 : Fin 2) * 10 + 10; omega

end Cert.KernelIdeal.Whole

end
-- ==== Proof.KernelHost.lean ====
/-
  What the host hands the kernel: the input flattened from 65536×28×28 to 65536×784, and each of the eight parameter
  vectors recast as a 1×50 row.  These recasts move no number: the flattened input is the input read in row-major
  order, and a row's entry j is the vector's entry j.
-/
import proofs.«144777_j48653389529541_2_alg».proof.Proof.Gen.KernelIdeal.Frame
import Idealize.ShloMosaic.Lib.StableHlo.Run
import Idealize.ShloMosaic.Lib.ValueLayout

noncomputable section

namespace Cert.KernelIdeal.Whole

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The array the input window is cut from is the input argument, flattened. -/
theorem V_flat (c : Dev nD) :
    (V m c main_v0 : S65536x784.Idx → EReal)
      = shapeCast S65536x784 (m ((c : Thread nD τ).loc main_arg0)) shapeCasts_S65536x28x28_S65536x784 := by
  dsimp only [Gen.V, Gen.hostOps0]; after_results; rfl

/-- The parameter row the host recast from argument main_arg4, read at column j. -/
theorem V_main_v1_apply (c : Dev nD) (j : Fin 50) :
    (V m c main_v1 : S1x50.Idx → EReal) (ix2 (0 : Fin 1) j) = (m ((c : Thread nD τ).loc main_arg4) : S50.Idx → EReal) (ix1 j) := by
  have e : (V m c main_v1 : S1x50.Idx → EReal) = shapeCast S1x50 (m ((c : Thread nD τ).loc main_arg4)) shapeCasts_S50_S1x50 := by
    dsimp only [Gen.V, Gen.hostOps0]; after_results; rfl
  rw [e]
  exact shapeCast_a_1a_apply _ _ 0 j

/-- The parameter row the host recast from argument main_arg5, read at column j. -/
theorem V_main_v2_apply (c : Dev nD) (j : Fin 50) :
    (V m c main_v2 : S1x50.Idx → EReal) (ix2 (0 : Fin 1) j) = (m ((c : Thread nD τ).loc main_arg5) : S50.Idx → EReal) (ix1 j) := by
  have e : (V m c main_v2 : S1x50.Idx → EReal) = shapeCast S1x50 (m ((c : Thread nD τ).loc main_arg5)) shapeCasts_S50_S1x50 := by
    dsimp only [Gen.V, Gen.hostOps0]; after_results; rfl
  rw [e]
  exact shapeCast_a_1a_apply _ _ 0 j

/-- The parameter row the host recast from argument main_arg6, read at column j. -/
theorem V_main_v3_apply (c : Dev nD) (j : Fin 50) :
    (V m c main_v3 : S1x50.Idx → EReal) (ix2 (0 : Fin 1) j) = (m ((c : Thread nD τ).loc main_arg6) : S50.Idx → EReal) (ix1 j) := by
  have e : (V m c main_v3 : S1x50.Idx → EReal) = shapeCast S1x50 (m ((c : Thread nD τ).loc main_arg6)) shapeCasts_S50_S1x50 := by
    dsimp only [Gen.V, Gen.hostOps0]; after_results; rfl
  rw [e]
  exact shapeCast_a_1a_apply _ _ 0 j

/-- The parameter row the host recast from argument main_arg7, read at column j. -/
theorem V_main_v4_apply (c : Dev nD) (j : Fin 50) :
    (V m c main_v4 : S1x50.Idx → EReal) (ix2 (0 : Fin 1) j) = (m ((c : Thread nD τ).loc main_arg7) : S50.Idx → EReal) (ix1 j) := by
  have e : (V m c main_v4 : S1x50.Idx → EReal) = shapeCast S1x50 (m ((c : Thread nD τ).loc main_arg7)) shapeCasts_S50_S1x50 := by
    dsimp only [Gen.V, Gen.hostOps0]; after_results; rfl
  rw [e]
  exact shapeCast_a_1a_apply _ _ 0 j

/-- The parameter row the host recast from argument main_arg8, read at column j. -/
theorem V_main_v5_apply (c : Dev nD) (j : Fin 50) :
    (V m c main_v5 : S1x50.Idx → EReal) (ix2 (0 : Fin 1) j) = (m ((c : Thread nD τ).loc main_arg8) : S50.Idx → EReal) (ix1 j) := by
  have e : (V m c main_v5 : S1x50.Idx → EReal) = shapeCast S1x50 (m ((c : Thread nD τ).loc main_arg8)) shapeCasts_S50_S1x50 := by
    dsimp only [Gen.V, Gen.hostOps0]; after_results; rfl
  rw [e]
  exact shapeCast_a_1a_apply _ _ 0 j

/-- The parameter row the host recast from argument main_arg9, read at column j. -/
theorem V_main_v6_apply (c : Dev nD) (j : Fin 50) :
    (V m c main_v6 : S1x50.Idx → EReal) (ix2 (0 : Fin 1) j) = (m ((c : Thread nD τ).loc main_arg9) : S50.Idx → EReal) (ix1 j) := by
  have e : (V m c main_v6 : S1x50.Idx → EReal) = shapeCast S1x50 (m ((c : Thread nD τ).loc main_arg9)) shapeCasts_S50_S1x50 := by
    dsimp only [Gen.V, Gen.hostOps0]; after_results; rfl
  rw [e]
  exact shapeCast_a_1a_apply _ _ 0 j

/-- The parameter row the host recast from argument main_arg10, read at column j. -/
theorem V_main_v7_apply (c : Dev nD) (j : Fin 50) :
    (V m c main_v7 : S1x50.Idx → EReal) (ix2 (0 : Fin 1) j) = (m ((c : Thread nD τ).loc main_arg10) : S50.Idx → EReal) (ix1 j) := by
  have e : (V m c main_v7 : S1x50.Idx → EReal) = shapeCast S1x50 (m ((c : Thread nD τ).loc main_arg10)) shapeCasts_S50_S1x50 := by
    dsimp only [Gen.V, Gen.hostOps0]; after_results; rfl
  rw [e]
  exact shapeCast_a_1a_apply _ _ 0 j

/-- The parameter row the host recast from argument main_arg11, read at column j. -/
theorem V_main_v8_apply (c : Dev nD) (j : Fin 50) :
    (V m c main_v8 : S1x50.Idx → EReal) (ix2 (0 : Fin 1) j) = (m ((c : Thread nD τ).loc main_arg11) : S50.Idx → EReal) (ix1 j) := by
  have e : (V m c main_v8 : S1x50.Idx → EReal) = shapeCast S1x50 (m ((c : Thread nD τ).loc main_arg11)) shapeCasts_S50_S1x50 := by
    dsimp only [Gen.V, Gen.hostOps0]; after_results; rfl
  rw [e]
  exact shapeCast_a_1a_apply _ _ 0 j

end Cert.KernelIdeal.Whole

end
-- ==== Proof.NetArr.lean ====
/-
  The network applied to every row of a matrix of inputs, the weights and parameters given as arrays.
-/
import proofs.«144777_j48653389529541_2_alg».proof.Proof.Spec

noncomputable section

namespace Cert.BinaryNet

open Idealize.ShloMosaic Idealize.ShloMosaic.ValueIdx

/-- Entry (r, c) of the result is the network on row r of `X`, at class c; the rows do not interact. -/
def netArr {n : ℕ} (X : (⟨2, ![n, 784]⟩ : Shape).Idx → EReal) (W1 : (⟨2, ![784, 50]⟩ : Shape).Idx → EReal)
    (W2 : (⟨2, ![50, 50]⟩ : Shape).Idx → EReal) (W3 : (⟨2, ![50, 10]⟩ : Shape).Idx → EReal)
    (g1 β1 μ1 v1 g2 β2 μ2 v2 : (⟨1, ![50]⟩ : Shape).Idx → EReal) : (⟨2, ![n, 10]⟩ : Shape).Idx → EReal :=
  fun i => net (fun k : Fin 784 => X (ix2 (i 0) k)) (fun k j => W1 (ix2 k j)) (fun k j => W2 (ix2 k j)) (fun k c => W3 (ix2 k c))
    (fun j => g1 (ix1 j)) (fun j => β1 (ix1 j)) (fun j => μ1 (ix1 j)) (fun j => v1 (ix1 j))
    (fun j => g2 (ix1 j)) (fun j => β2 (ix1 j)) (fun j => μ2 (ix1 j)) (fun j => v2 (ix1 j)) (i 1)

/-- The same, read at (r, c). -/
theorem netArr_apply {n : ℕ} (X : (⟨2, ![n, 784]⟩ : Shape).Idx → EReal) (W1 : (⟨2, ![784, 50]⟩ : Shape).Idx → EReal)
    (W2 : (⟨2, ![50, 50]⟩ : Shape).Idx → EReal) (W3 : (⟨2, ![50, 10]⟩ : Shape).Idx → EReal)
    (g1 β1 μ1 v1 g2 β2 μ2 v2 : (⟨1, ![50]⟩ : Shape).Idx → EReal) (r : Fin n) (c : Fin 10) :
    netArr X W1 W2 W3 g1 β1 μ1 v1 g2 β2 μ2 v2 (ix2 r c)
      = net (fun k : Fin 784 => X (ix2 r k)) (fun k j => W1 (ix2 k j)) (fun k j => W2 (ix2 k j)) (fun k c => W3 (ix2 k c))
          (fun j => g1 (ix1 j)) (fun j => β1 (ix1 j)) (fun j => μ1 (ix1 j)) (fun j => v1 (ix1 j))
          (fun j => g2 (ix1 j)) (fun j => β2 (ix1 j)) (fun j => μ2 (ix1 j)) (fun j => v2 (ix1 j)) c := rfl

end Cert.BinaryNet

end
-- ==== Proof.KernelWhole.lean ====
/-
  The kernel's result array, whole: the network applied to every row of the flattened input.

  At each of the 16 grid points the body turns the input window's 4096 rows into the output window's 4096 rows, each
  output row from its own input row only — the network on that row, provided the row's entries are finite.  The output
  blocks tile the result, so the result is the network on every row.
-/
import proofs.«144777_j48653389529541_2_alg».proof.Proof.Gen.KernelIdeal.Value
import proofs.«144777_j48653389529541_2_alg».proof.Proof.KernelRow
import proofs.«144777_j48653389529541_2_alg».proof.Proof.KernelBlocks
import proofs.«144777_j48653389529541_2_alg».proof.Proof.KernelHost
import proofs.«144777_j48653389529541_2_alg».proof.Proof.NetArr

noncomputable section

namespace Cert.KernelIdeal.Whole

open Cert.KernelIdeal Cert.KernelIdeal.Gen Idealize.ShloMosaic Idealize.ShloMosaic.TcCoe Idealize.SL.Sem Idealize.ShloMosaic.ValueIdx
open Cert.BinaryNet Cert.KernelIdeal.Row
open Idealize.ShloMosaic.Pipeline (Dat)

/-- The body's three stages composed, at entry (p, c) of a block: the network on row p of the input block. -/
theorem body_apply (x0 : Vec Ideal S4096x784 .f32) (x1 : Vec Ideal S784x50 .f32) (x2 : Vec Ideal S50x50 .f32) (x3 : Vec Ideal S50x10 .f32)
    (x4 x5 x6 x7 x8 x9 x10 x11 : Vec Ideal S1x50 .f32) (p : Fin 4096) (c : Fin 10)
    (hx : ∀ k : Fin 784, (x0 (ix2 p k) : EReal) ≠ ⊤ ∧ (x0 (ix2 p k) : EReal) ≠ ⊥) :
    (k0_pay1 (F := Ideal) (k0_pay3 (k0_pay2 x0 x1 x4 x6 x7 x5) x2 x8 x10 x11 x9) x3 (ix2 p c) : EReal)
      = net (fun k => (x0 (ix2 p k) : EReal)) (fun k j => (x1 (ix2 k j) : EReal)) (fun k j => (x2 (ix2 k j) : EReal))
          (fun k c => (x3 (ix2 k c) : EReal))
          (fun j => (x4 (ix2 (0 : Fin 1) j) : EReal)) (fun j => (x5 (ix2 (0 : Fin 1) j) : EReal))
          (fun j => (x6 (ix2 (0 : Fin 1) j) : EReal)) (fun j => (x7 (ix2 (0 : Fin 1) j) : EReal))
          (fun j => (x8 (ix2 (0 : Fin 1) j) : EReal)) (fun j => (x9 (ix2 (0 : Fin 1) j) : EReal))
          (fun j => (x10 (ix2 (0 : Fin 1) j) : EReal)) (fun j => (x11 (ix2 (0 : Fin 1) j) : EReal)) c := by
  have e2 : ∀ k' : Fin 50, k0_pay2 (F := Ideal) x0 x1 x4 x6 x7 x5 (ix2 p k') = _ := fun k' => pay2_apply x0 x1 x4 x6 x7 x5 p k' hx
  have e3 : ∀ k : Fin 50, (k0_pay3 (F := Ideal) (k0_pay2 x0 x1 x4 x6 x7 x5) x2 x8 x10 x11 x9 (ix2 p k) : EReal) = _ :=
    fun k => pay3_apply (k0_pay2 x0 x1 x4 x6 x7 x5) x2 x8 x10 x11 x9 p k
  rw [pay1_apply]
  simp only [e3, e2]
  rfl

variable (m : (ℓ : Loc nD τ sig) → Buf (Elt Ideal) ℓ) (ρ : Dev nD → PrngReg)

/-- The network on every row of the array the input window is cut from, with the weights and the parameter vectors as
    the region finds them. -/
def target (c : Dev nD) : S65536x10.Idx → EReal :=
  netArr (V m c main_v0) (V m c main_arg1) (V m c main_arg2) (V m c main_arg3)
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))

/-! Each parameter window's one row, at every grid point, is the parameter vector the host recast. -/
theorem iblk4_row (c : Dev nD) (t : Fin cfg0.N) (j : Fin 50) :
    (iblk m c 4 t : Vec Ideal S1x50 .f32) (ix2 (0 : Fin 1) j) = (m ((c : Thread nD τ).loc main_arg4) : S50.Idx → EReal) (ix1 j) :=
  (iblk4_apply m c t _).trans (V_main_v1_apply m c j)
theorem iblk5_row (c : Dev nD) (t : Fin cfg0.N) (j : Fin 50) :
    (iblk m c 5 t : Vec Ideal S1x50 .f32) (ix2 (0 : Fin 1) j) = (m ((c : Thread nD τ).loc main_arg5) : S50.Idx → EReal) (ix1 j) :=
  (iblk5_apply m c t _).trans (V_main_v2_apply m c j)
theorem iblk6_row (c : Dev nD) (t : Fin cfg0.N) (j : Fin 50) :
    (iblk m c 6 t : Vec Ideal S1x50 .f32) (ix2 (0 : Fin 1) j) = (m ((c : Thread nD τ).loc main_arg6) : S50.Idx → EReal) (ix1 j) :=
  (iblk6_apply m c t _).trans (V_main_v3_apply m c j)
theorem iblk7_row (c : Dev nD) (t : Fin cfg0.N) (j : Fin 50) :
    (iblk m c 7 t : Vec Ideal S1x50 .f32) (ix2 (0 : Fin 1) j) = (m ((c : Thread nD τ).loc main_arg7) : S50.Idx → EReal) (ix1 j) :=
  (iblk7_apply m c t _).trans (V_main_v4_apply m c j)
theorem iblk8_row (c : Dev nD) (t : Fin cfg0.N) (j : Fin 50) :
    (iblk m c 8 t : Vec Ideal S1x50 .f32) (ix2 (0 : Fin 1) j) = (m ((c : Thread nD τ).loc main_arg8) : S50.Idx → EReal) (ix1 j) :=
  (iblk8_apply m c t _).trans (V_main_v5_apply m c j)
theorem iblk9_row (c : Dev nD) (t : Fin cfg0.N) (j : Fin 50) :
    (iblk m c 9 t : Vec Ideal S1x50 .f32) (ix2 (0 : Fin 1) j) = (m ((c : Thread nD τ).loc main_arg9) : S50.Idx → EReal) (ix1 j) :=
  (iblk9_apply m c t _).trans (V_main_v6_apply m c j)
theorem iblk10_row (c : Dev nD) (t : Fin cfg0.N) (j : Fin 50) :
    (iblk m c 10 t : Vec Ideal S1x50 .f32) (ix2 (0 : Fin 1) j) = (m ((c : Thread nD τ).loc main_arg10) : S50.Idx → EReal) (ix1 j) :=
  (iblk10_apply m c t _).trans (V_main_v7_apply m c j)
theorem iblk11_row (c : Dev nD) (t : Fin cfg0.N) (j : Fin 50) :
    (iblk m c 11 t : Vec Ideal S1x50 .f32) (ix2 (0 : Fin 1) j) = (m ((c : Thread nD τ).loc main_arg11) : S50.Idx → EReal) (ix1 j) :=
  (iblk11_apply m c t _).trans (V_main_v8_apply m c j)

theorem hz : (![0, 0] : Fin 2 → Nat) = fun _ => 0 := funext fun a => by fin_cases a <;> rfl

/-- What grid point t writes back is block t of `target`, when the flattened input is finite. -/
theorem flushed_eq (c : Dev nD) (hfin : ∀ i : S65536x784.Idx, @Ne EReal (V m c main_v0 i) ⊤ ∧ @Ne EReal (V m c main_v0 i) ⊥)
    (t : Fin cfg0.N) :
    (dats m 0 c).flushed 12 t = ((cfg0.win 12).blk t).view.read (Elt Ideal) (target m c) := by
  rw [Cert.KernelIdeal.Value.flushed12]
  unfold out0_12
  rw [View.canon_unit_zero hz]
  simp only [View.ld_unit_zero (S := S4096x784) hz, View.ld_unit_zero (S := S784x50) hz, View.ld_unit_zero (S := S50x50) hz,
    View.ld_unit_zero (S := S50x10) hz, View.ld_unit_zero (S := S1x50) hz]
  refine funext fun (y : S4096x10.Idx) => ?_
  obtain ⟨p, q, rfl⟩ : ∃ (p : Fin 4096) (q : Fin 10), y = ix2 p q := ⟨y 0, y 1, eq_ix2 y⟩
  obtain ⟨-, -, -, hle⟩ := idx_rows t
  have hlt : win0_12.index t (0 : Fin 2) * 4096 + p.val < 65536 := by have := p.isLt; omega
  have hx : ∀ k : Fin 784, @Ne EReal ((iblk m c 0 t : Vec Ideal S4096x784 .f32) (ix2 p k)) ⊤ ∧ @Ne EReal ((iblk m c 0 t : Vec Ideal S4096x784 .f32) (ix2 p k)) ⊥ :=
    fun k => by rw [iblk0_apply m c t p k ⟨_, hlt⟩ rfl]; exact hfin _
  show (k0_pay1 (F := Ideal) (k0_pay3 (k0_pay2 (iblk m c 0 t) (iblk m c 1 t) (iblk m c 4 t) (iblk m c 6 t) (iblk m c 7 t) (iblk m c 5 t))
      (iblk m c 2 t) (iblk m c 8 t) (iblk m c 10 t) (iblk m c 11 t) (iblk m c 9 t)) (iblk m c 3 t) (ix2 p q) : EReal)
    = target m c (((cfg0.win 12).blk t).view.emb (ix2 p q))
  rw [body_apply (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) p q hx, out_emb t p q ⟨_, hlt⟩ rfl]
  unfold target
  rw [netArr_apply]
  simp only [iblk0_apply m c t p _ ⟨_, hlt⟩ rfl, iblk1_apply, iblk2_apply, iblk3_apply, iblk4_row, iblk5_row, iblk6_row,
    iblk7_row, iblk8_row, iblk9_row, iblk10_row, iblk11_row]

/-- The result array after the run. -/
theorem final (c : Dev nD) (hfin : ∀ i : S65536x784.Idx, @Ne EReal (V m c main_v0 i) ⊤ ∧ @Ne EReal (V m c main_v0 i) ⊥) :
    (dats m 0 c).arrAt 12 cfg0.N = target m c :=
  (dats m 0 c).arrAt_eq_of_cover 12 (target m c) (fun t _ => flushed_eq m c hfin t) cover

end Cert.KernelIdeal.Whole

end
-- ==== Proof.LibHostRowMax.lean ====
/-
  The host's largest entry of each row of a matrix, read at an index — general in the extents.

  A one-operand reduction with a maximum body along the second axis of an `n × m` matrix reads, at `p`, the fold of
  `max`, from the initial value, over the entries `(p, k)` of row `p`: over the extended reals `max` is commutative and
  associative, so the order of the fold does not matter.  (The host-side twin of the vector unit's row maximum.)
-/
import Idealize.ShloMosaic.Lib.ValueIdx
import Idealize.ShloMosaic.PureOps.Ideal.Laws

noncomputable section

namespace Cert.LibHostRowMax

open Idealize.ShloMosaic Idealize.ShloMosaic.ValueIdx

/-- Over the extended reals the host's reduction by `max` of an `n × m` matrix along its second axis reads, at `p`, the
    fold of `max` from the initial value over `k` of the entries `(p, k)`. -/
theorem hostRowMax_apply {n m : ℕ} {φ : FTy} {u : Shape} (x : FVec Ideal ⟨2, ![n, m]⟩ φ) (init : u.Idx → Ideal φ)
    (h' : (⟨2, ![n, m]⟩ : Shape).ReducesTo [1] ⟨1, ![n]⟩) (h : (⟨2, ![n, m]⟩ : Shape).Reduces [1] ⟨1, ![n]⟩)
    (hu : 0 < u.numel) (p : Fin n) :
    Host.reduce FloatOps.maximumf x init h' hu (ix1 p)
      = (Finset.univ : Finset (Fin m)).fold max (init (Shape.Idx.first hu)) (fun k : Fin m => x (ix2 p k)) := by
  refine (Host.reduce_eq_fold_single FloatOps.maximumf x init h' h hu (ix1 p)).trans ?_
  have hf : (x ∘ h.lift (ix1 p)) = fun k : Fin m => x (ix2 p k) := funext fun k => congrArg x
    (funext fun c => Fin.ext (by match c with | ⟨0, _⟩ => rfl | ⟨1, _⟩ => rfl))
  exact congrArg (fun f => Finset.fold max (init (Shape.Idx.first hu)) f (Finset.univ : Finset (Fin m))) hf

end Cert.LibHostRowMax

end
-- ==== Proof.RefRow.lean ====
/-
  The reference, stage by stage, read at one entry as the network's layers on one row of the input.
-/
import proofs.«144777_j48653389529541_2_alg».proof.Proof.Gen.ReferenceIdeal.Read
import proofs.«144777_j48653389529541_2_alg».proof.Proof.Spec
import proofs.«144777_j48653389529541_2_alg».proof.Proof.LibHostRowMax

noncomputable section

open scoped BigOperators

namespace Cert.ReferenceIdeal.Row

open Cert.ReferenceIdeal Cert.ReferenceIdeal.Gen Cert.ReferenceIdeal.Read Idealize.ShloMosaic Idealize.ShloMosaic.ValueIdx Cert.BinaryNet

/-! ### Where each spread parameter row and each operand of a product is read -/

theorem i_v8 (r : Fin 65536) (j : Fin 50) : idx_main_v8 (idx_main_v9 (ix2 r j)) = ix1 j :=
  funext fun a => Fin.ext (by match a with | ⟨0, _⟩ => rfl)
theorem i_v11 (r : Fin 65536) (j : Fin 50) : idx_main_v11 (idx_main_v12 (ix2 r j)) = ix1 j :=
  funext fun a => Fin.ext (by match a with | ⟨0, _⟩ => rfl)
theorem i_v17 (r : Fin 65536) (j : Fin 50) : idx_main_v17 (idx_main_v18 (ix2 r j)) = ix1 j :=
  funext fun a => Fin.ext (by match a with | ⟨0, _⟩ => rfl)
theorem i_v20 (r : Fin 65536) (j : Fin 50) : idx_main_v20 (idx_main_v21 (ix2 r j)) = ix1 j :=
  funext fun a => Fin.ext (by match a with | ⟨0, _⟩ => rfl)
theorem l_v5 (r : Fin 65536) (j : Fin 50) (k : Fin 784) : lidx_main_v5 (ix2 r j) k = ix2 r k :=
  funext fun a => Fin.ext (by match a with | ⟨0, _⟩ => rfl | ⟨1, _⟩ => rfl)
theorem r_v5 (r : Fin 65536) (j : Fin 50) (k : Fin 784) : ridx_main_v5 (ix2 r j) k = ix2 k j :=
  funext fun a => Fin.ext (by match a with | ⟨0, _⟩ => rfl | ⟨1, _⟩ => rfl)

/-- The first hidden layer's sign bit at (r, j): the layer on row r of the flattened input. -/
theorem mask1_apply (x0 : (⟨S65536x28x28, .f32⟩ : BufTy).Contents (Elt Ideal)) (x1 : (⟨S784x50, .f32⟩ : BufTy).Contents (Elt Ideal)) (x4 x5 x6 x7 : (⟨S50, .f32⟩ : BufTy).Contents (Elt Ideal)) (r : Fin 65536) (j : Fin 50) :
    val_main_v24 (F := Ideal) x0 x1 x4 x5 x6 x7 (ix2 r j)
      = layer (fun k => (val_main_v0 (F := Ideal) x0 (ix2 r k) : EReal)) (fun k j => (x1 (ix2 k j) : EReal)) (fun j => (x4 (ix1 j) : EReal))
          (fun j => (x6 (ix1 j) : EReal)) (fun j => (x7 (ix1 j) : EReal)) (fun j => (x5 (ix1 j) : EReal)) j := by
  simp only [val_main_v24_apply, val_main_v22_apply, val_main_v19_apply, val_main_v13_apply, val_main_v10_apply, val_main_v7_apply, val_main_v5_apply, val_main_v4_apply, val_main_v3_apply, val_main_v2_apply, val_main_v1_apply, val_main_cst_apply, val_main_call0_v0_apply, val_main_call0_v1_apply, val_main_cst_0_apply, val_main_cst_1_apply, val_main_v6_apply, val_main_cst_2_apply, val_main_v9_apply, val_main_v8_apply, val_main_v12_apply, val_main_v11_apply, val_main_v18_apply, val_main_v17_apply, val_main_v16_apply, val_main_v15_apply, val_main_v14_apply, val_main_cst_3_apply, val_main_v21_apply, val_main_v20_apply, val_main_v23_apply, val_main_cst_4_apply,
    i_v8, i_v11, i_v17, i_v20, l_v5, r_v5]
  rfl

theorem i_v34 (r : Fin 65536) (j : Fin 50) : idx_main_v34 (idx_main_v35 (ix2 r j)) = ix1 j :=
  funext fun a => Fin.ext (by match a with | ⟨0, _⟩ => rfl)
theorem i_v37 (r : Fin 65536) (j : Fin 50) : idx_main_v37 (idx_main_v38 (ix2 r j)) = ix1 j :=
  funext fun a => Fin.ext (by match a with | ⟨0, _⟩ => rfl)
theorem i_v43 (r : Fin 65536) (j : Fin 50) : idx_main_v43 (idx_main_v44 (ix2 r j)) = ix1 j :=
  funext fun a => Fin.ext (by match a with | ⟨0, _⟩ => rfl)
theorem i_v46 (r : Fin 65536) (j : Fin 50) : idx_main_v46 (idx_main_v47 (ix2 r j)) = ix1 j :=
  funext fun a => Fin.ext (by match a with | ⟨0, _⟩ => rfl)
theorem l_v31 (r : Fin 65536) (j : Fin 50) (k : Fin 50) : lidx_main_v31 (ix2 r j) k = ix2 r k :=
  funext fun a => Fin.ext (by match a with | ⟨0, _⟩ => rfl | ⟨1, _⟩ => rfl)
theorem r_v31 (r : Fin 65536) (j : Fin 50) (k : Fin 50) : ridx_main_v31 (ix2 r j) k = ix2 k j :=
  funext fun a => Fin.ext (by match a with | ⟨0, _⟩ => rfl | ⟨1, _⟩ => rfl)

/-- The second hidden layer's sign bit at (r, j): the layer fed with the signs of the first layer's bits on row r. -/
theorem mask2_apply (x0 : (⟨S65536x28x28, .f32⟩ : BufTy).Contents (Elt Ideal)) (x1 : (⟨S784x50, .f32⟩ : BufTy).Contents (Elt Ideal)) (x2 : (⟨S50x50, .f32⟩ : BufTy).Contents (Elt Ideal)) (x4 x5 x6 x7 x8 x9 x10 x11 : (⟨S50, .f32⟩ : BufTy).Contents (Elt Ideal)) (r : Fin 65536) (j : Fin 50) :
    val_main_v50 (F := Ideal) x0 x1 x2 x4 x5 x6 x7 x8 x9 x10 x11 (ix2 r j)
      = layer (fun k => pm (val_main_v24 (F := Ideal) x0 x1 x4 x5 x6 x7 (ix2 r k))) (fun k j => (x2 (ix2 k j) : EReal)) (fun j => (x8 (ix1 j) : EReal))
          (fun j => (x10 (ix1 j) : EReal)) (fun j => (x11 (ix1 j) : EReal)) (fun j => (x9 (ix1 j) : EReal)) j := by
  simp only [val_main_v50_apply, val_main_v48_apply, val_main_v45_apply, val_main_v39_apply, val_main_v36_apply, val_main_v33_apply, val_main_v31_apply, val_main_v30_apply, val_main_v29_apply, val_main_v28_apply, val_main_v27_apply, val_main_cst_7_apply, val_main_call2_v0_apply, val_main_call2_v1_apply, val_main_cst_8_apply, val_main_cst_9_apply, val_main_v26_apply, val_main_v25_apply, val_main_call1_v0_apply, val_main_call1_v1_apply, val_main_cst_5_apply, val_main_cst_6_apply, val_main_v32_apply, val_main_cst_10_apply, val_main_v35_apply, val_main_v34_apply, val_main_v38_apply, val_main_v37_apply, val_main_v44_apply, val_main_v43_apply, val_main_v42_apply, val_main_v41_apply, val_main_v40_apply, val_main_cst_11_apply, val_main_v47_apply, val_main_v46_apply, val_main_v49_apply, val_main_cst_12_apply,
    i_v34, i_v37, i_v43, i_v46, l_v31, r_v31]
  rfl

theorem i_v61 (r : Fin 65536) (c : Fin 10) : idx_main_v61 (idx_main_v62 (ix2 r c)) = ix1 r :=
  funext fun a => Fin.ext (by match a with | ⟨0, _⟩ => rfl)
theorem i_v66 (r : Fin 65536) (c : Fin 10) : idx_main_v66 (idx_main_v67 (ix2 r c)) = ix1 r :=
  funext fun a => Fin.ext (by match a with | ⟨0, _⟩ => rfl)
theorem i_v65 (r : Fin 65536) (k : Fin 10) : idx_main_v65 (ix1 r) k = ix2 r k :=
  funext fun a => Fin.ext (by match a with | ⟨0, _⟩ => rfl | ⟨1, _⟩ => rfl)
theorem l_v57 (r : Fin 65536) (c : Fin 10) (k : Fin 50) : lidx_main_v57 (ix2 r c) k = ix2 r k :=
  funext fun a => Fin.ext (by match a with | ⟨0, _⟩ => rfl | ⟨1, _⟩ => rfl)
theorem r_v57 (r : Fin 65536) (c : Fin 10) (k : Fin 50) : ridx_main_v57 (ix2 r c) k = ix2 k c :=
  funext fun a => Fin.ext (by match a with | ⟨0, _⟩ => rfl | ⟨1, _⟩ => rfl)

/-- The largest logit of row r: the fold of `max`, from the word of `−∞`, over the row. -/
theorem rowmax_apply (x0 : (⟨S65536x28x28, .f32⟩ : BufTy).Contents (Elt Ideal)) (x1 : (⟨S784x50, .f32⟩ : BufTy).Contents (Elt Ideal)) (x2 : (⟨S50x50, .f32⟩ : BufTy).Contents (Elt Ideal)) (x3 : (⟨S50x10, .f32⟩ : BufTy).Contents (Elt Ideal)) (x4 x5 x6 x7 x8 x9 x10 x11 : (⟨S50, .f32⟩ : BufTy).Contents (Elt Ideal)) (r : Fin 65536) :
    val_main_v58 (F := Ideal) x0 x1 x2 x3 x4 x5 x6 x7 x8 x9 x10 x11 (ix1 r)
      = (Finset.univ : Finset (Fin 10)).fold max (Ideal.ofBits .f32 0xFF800000#32)
          (fun k : Fin 10 => (val_main_v57 (F := Ideal) x0 x1 x2 x3 x4 x5 x6 x7 x8 x9 x10 x11 (ix2 r k) : EReal)) := by
  unfold val_main_v58
  generalize val_main_v57 (F := Ideal) x0 x1 x2 x3 x4 x5 x6 x7 x8 x9 x10 x11 = y
  exact Cert.LibHostRowMax.hostRowMax_apply y _ reducesTo_S65536x10_S65536_d1 (by decide) h_S_ r

/-- The shift the softmax subtracts on row r: taking the maximum with the word of `−∞` once more changes nothing, so it is
    the row's largest logit. -/
theorem shift_apply (x0 : (⟨S65536x28x28, .f32⟩ : BufTy).Contents (Elt Ideal)) (x1 : (⟨S784x50, .f32⟩ : BufTy).Contents (Elt Ideal)) (x2 : (⟨S50x50, .f32⟩ : BufTy).Contents (Elt Ideal)) (x3 : (⟨S50x10, .f32⟩ : BufTy).Contents (Elt Ideal)) (x4 x5 x6 x7 x8 x9 x10 x11 : (⟨S50, .f32⟩ : BufTy).Contents (Elt Ideal)) (r : Fin 65536) :
    (val_main_v60 (F := Ideal) x0 x1 x2 x3 x4 x5 x6 x7 x8 x9 x10 x11 (ix1 r) : EReal)
      = (Finset.univ : Finset (Fin 10)).fold max (Ideal.ofBits .f32 0xFF800000#32)
          (fun k : Fin 10 => (val_main_v57 (F := Ideal) x0 x1 x2 x3 x4 x5 x6 x7 x8 x9 x10 x11 (ix2 r k) : EReal)) := by
  rw [val_main_v60_apply, val_main_v59_apply, val_main_cst_19_apply, rowmax_apply]
  exact max_fold_self _ _

/-- The result at (r, c): the head on the second layer's bits of row r. -/
theorem out_apply (x0 : (⟨S65536x28x28, .f32⟩ : BufTy).Contents (Elt Ideal)) (x1 : (⟨S784x50, .f32⟩ : BufTy).Contents (Elt Ideal)) (x2 : (⟨S50x50, .f32⟩ : BufTy).Contents (Elt Ideal)) (x3 : (⟨S50x10, .f32⟩ : BufTy).Contents (Elt Ideal)) (x4 x5 x6 x7 x8 x9 x10 x11 : (⟨S50, .f32⟩ : BufTy).Contents (Elt Ideal)) (r : Fin 65536) (c : Fin 10) :
    (val_main_v68 (F := Ideal) x0 x1 x2 x3 x4 x5 x6 x7 x8 x9 x10 x11 (ix2 r c) : EReal)
      = head (fun k => val_main_v50 (F := Ideal) x0 x1 x2 x4 x5 x6 x7 x8 x9 x10 x11 (ix2 r k)) (fun k c => (x3 (ix2 k c) : EReal)) c := by
  simp only [val_main_v68_apply, val_main_v67_apply, val_main_v66_apply, i_v66]
  simp only [val_main_v65_apply]
  simp only [i_v65]
  simp only [val_main_cst_20_apply, val_main_v64_apply, val_main_v63_apply, val_main_v62_apply, val_main_v61_apply]
  simp only [i_v61]
  rw [shift_apply]
  simp only [val_main_v57_apply, val_main_v56_apply, val_main_v55_apply, val_main_v54_apply, val_main_v53_apply, val_main_cst_15_apply, val_main_call4_v0_apply, val_main_call4_v1_apply, val_main_cst_16_apply, val_main_cst_17_apply, val_main_v52_apply, val_main_v51_apply, val_main_call3_v0_apply, val_main_call3_v1_apply, val_main_cst_13_apply, val_main_cst_14_apply]
  simp only [l_v57, r_v57]
  have h0 : ∀ s : EReal, (FloatOps.ofBits (F := Ideal) .f32 0x00000000#32 : EReal) + s = s := fun s => by
    rw [show (FloatOps.ofBits (F := Ideal) .f32 0x00000000#32 : EReal) = 0 from Ideal.ofBits_zero_f32, zero_add]
  rw [h0]
  rfl

end Cert.ReferenceIdeal.Row

end
-- ==== Proof.RefWhole.lean ====
/-
  The reference's result array, whole: the network applied to every row of the flattened input.
-/
import proofs.«144777_j48653389529541_2_alg».proof.Proof.RefRow
import proofs.«144777_j48653389529541_2_alg».proof.Proof.NetArr

noncomputable section

namespace Cert.ReferenceIdeal.Row

open Cert.ReferenceIdeal Cert.ReferenceIdeal.Gen Cert.ReferenceIdeal.Read Idealize.ShloMosaic Idealize.ShloMosaic.ValueIdx Cert.BinaryNet

/-- The reference's last stage is the network on every row of its flattened input: entry (r, c) is the head on the
    second layer's bits of row r, those the second layer on the signs of the first layer's bits of row r, and those the
    first layer on row r itself. -/
theorem result_eq (x0 : (⟨S65536x28x28, .f32⟩ : BufTy).Contents (Elt Ideal)) (x1 : (⟨S784x50, .f32⟩ : BufTy).Contents (Elt Ideal)) (x2 : (⟨S50x50, .f32⟩ : BufTy).Contents (Elt Ideal)) (x3 : (⟨S50x10, .f32⟩ : BufTy).Contents (Elt Ideal)) (x4 x5 x6 x7 x8 x9 x10 x11 : (⟨S50, .f32⟩ : BufTy).Contents (Elt Ideal)) :
    val_main_v68 (F := Ideal) x0 x1 x2 x3 x4 x5 x6 x7 x8 x9 x10 x11
      = netArr (val_main_v0 (F := Ideal) x0) x1 x2 x3 x4 x5 x6 x7 x8 x9 x10 x11 := by
  refine funext fun (i : S65536x10.Idx) => ?_
  obtain ⟨r, c, rfl⟩ : ∃ (r : Fin 65536) (c : Fin 10), i = ix2 r c := ⟨i 0, i 1, eq_ix2 i⟩
  have e1 : ∀ k : Fin 50, val_main_v24 (F := Ideal) x0 x1 x4 x5 x6 x7 (ix2 r k) = _ := fun k => mask1_apply x0 x1 x4 x5 x6 x7 r k
  have e2 : ∀ k : Fin 50, val_main_v50 (F := Ideal) x0 x1 x2 x4 x5 x6 x7 x8 x9 x10 x11 (ix2 r k) = _ :=
    fun k => mask2_apply x0 x1 x2 x4 x5 x6 x7 x8 x9 x10 x11 r k
  rw [out_apply, netArr_apply]
  simp only [e2, e1]
  rfl

end Cert.ReferenceIdeal.Row

end
-- ==== Proof.Finite.lean ====
/-
  From the precondition to "every entry of the input array is a real number".

  The precondition is a conjunction of twelve "all entries have absolute value below +∞" tests, one per argument, nested
  to the left; the first one is about the input array.  An extended real whose absolute value `max x (−x)` is below
  `+∞` is neither `+∞` nor `−∞`.
-/
import proofs.«144777_j48653389529541_2_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

variable [Facts]
open Facts

/-- The shape with no axes has one index. -/
instance subsingleton_scalar_idx : Subsingleton S_.Idx := ⟨fun _ _ => funext fun d => d.elim0⟩

/-- If `|x| < +∞` holds as a comparison bit, then `x` is neither infinity. -/
theorem finite_of_abs_lt_inf {x : EReal}
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  unfold Ideal.cmp at h
  induction x using EReal.rec with
  | bot => simp at h
  | top => simp at h
  | coe r => exact ⟨EReal.coe_ne_top r, EReal.coe_ne_bot r⟩

/-- Under the precondition every entry of the first argument is finite. -/
theorem input_finite (a0 : FVec Ideal S65536x28x28 .f32) (a1 : FVec Ideal S784x50 .f32) (a2 : FVec Ideal S50x50 .f32)
    (a3 : FVec Ideal S50x10 .f32) (a4 a5 a6 a7 a8 a9 a10 a11 : FVec Ideal S50 .f32)
    (h : fn (F := Ideal) a0 a1 a2 a3 a4 a5 a6 a7 a8 a9 a10 a11 = fun _ => 1#1) (i : S65536x28x28.Idx) :
    (a0 i : EReal) ≠ ⊤ ∧ (a0 i : EReal) ≠ ⊥ := by
  have h0 := congrFun h ValueIdx.ix0
  dsimp only [fn, fn_part1, fn_part2, fn_part3] at h0
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).1
  have h6 := (IntOp.andi_eq_one.1 h5).1
  have h7 := (IntOp.andi_eq_one.1 h6).1
  have h8 := (IntOp.andi_eq_one.1 h7).1
  have h9 := (IntOp.andi_eq_one.1 h8).1
  have h10 := (IntOp.andi_eq_one.1 h9).1
  have h11 := (IntOp.andi_eq_one.1 h10).1
  have e := Host.reduce_andi_all _ _ _ _ _ h11 i
  exact finite_of_abs_lt_inf e

end Cert.Pre_finite_inputs.Finite

end
-- ==== Proof.lean ====
/-
  A binarised three-layer perceptron with a softmax head, evaluated block by block on a vector unit, against the same
  network written with whole-array operations.

  The kernel cuts the 65536 input rows into 16 blocks of 4096. On each block it forms the first layer's products with
  the signs of the weights twice — with the block, and with the block minus itself (the remainder of a split of each
  number into a leading and a trailing part, which on the extended reals is zero for a finite number) — and adds them;
  then it rectifies, normalises column by column, takes signs, multiplies by the signs of the next weights, and so on,
  ending in a softmax shifted by each row's largest logit.  Every output row depends on its own input row only, so the
  blocks assemble into the network applied to every row: the same function the reference computes.  The one place
  where the two differ before simplification — the vanishing second product — is where the finiteness of the input is
  used; the reference also takes the maximum of the row's largest logit with `−∞` once more, which changes nothing.
  The round trip through the narrower format that the idealisation removed is the identity on the extended reals.
-/
import proofs.«144777_j48653389529541_2_alg».proof.Defs
import proofs.«144777_j48653389529541_2_alg».proof.Proof.Gen.Kernel
import proofs.«144777_j48653389529541_2_alg».proof.Proof.Gen.Kernel.Skeleton
import proofs.«144777_j48653389529541_2_alg».proof.Proof.Gen.Kernel.Launch
import proofs.«144777_j48653389529541_2_alg».proof.Proof.Gen.Kernel.Points
import proofs.«144777_j48653389529541_2_alg».proof.Proof.Gen.Kernel.Frame
import proofs.«144777_j48653389529541_2_alg».proof.Proof.Gen.KernelIdeal
import proofs.«144777_j48653389529541_2_alg».proof.Proof.Gen.KernelIdeal.Skeleton
import proofs.«144777_j48653389529541_2_alg».proof.Proof.Gen.KernelIdeal.Launch
import proofs.«144777_j48653389529541_2_alg».proof.Proof.Gen.KernelIdeal.Points
import proofs.«144777_j48653389529541_2_alg».proof.Proof.Gen.KernelIdeal.Frame
import proofs.«144777_j48653389529541_2_alg».proof.Proof.Gen.ReferenceIdeal
import proofs.«144777_j48653389529541_2_alg».proof.Proof.Gen.Pre_finite_inputs
import proofs.«144777_j48653389529541_2_alg».proof.Proof.Gen.KernelIdeal.Value
import proofs.«144777_j48653389529541_2_alg».proof.Proof.Gen.ReferenceIdeal.Run
import proofs.«144777_j48653389529541_2_alg».proof.Proof.Gen.ReferenceIdeal.Read
import proofs.«144777_j48653389529541_2_alg».proof.Proof.KernelWhole
import proofs.«144777_j48653389529541_2_alg».proof.Proof.RefWhole
import proofs.«144777_j48653389529541_2_alg».proof.Proof.Finite
import Idealize.ShloMosaic.Adequacy
import Idealize.ShloMosaic.Init

noncomputable section

namespace Cert.Proof

open Idealize.ShloMosaic Idealize.ShloMosaic.TcCoe Idealize.SL.Sem Cert.Kernel

/-- The three programs run to the end without a fault and leave their arguments as they were: the two kernels by their
    generated frames, the reference by its generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Narrowing a 4096×784 block to the sixteen-bit format and widening it back is the identity on the extended reals. -/
theorem preserves : Cert.preserves_Kernel_KernelIdeal :=
  IdealRules.truncf_extf.statement _ .f32 .bf16

/-- Both idealised programs end with the network applied to every row of the flattened input. -/
theorem algebraic : Cert.algebraic_KernelIdeal_ReferenceIdeal := by
  intro m ρ m' ρ' hpre hagree
  have hfin : ∀ (c : Dev Cert.KernelIdeal.nD) (i : Cert.KernelIdeal.S65536x784.Idx),
      @Ne EReal (Cert.KernelIdeal.Gen.V m c Cert.KernelIdeal.main_v0 i) ⊤ ∧ @Ne EReal (Cert.KernelIdeal.Gen.V m c Cert.KernelIdeal.main_v0 i) ⊥ := fun c i => by
    rw [Cert.KernelIdeal.Whole.V_flat m c]
    exact Cert.Pre_finite_inputs.Finite.input_finite _ _ _ _ _ _ _ _ _ _ _ _ (hpre c) _
  refine ⟨fun c => Cert.KernelIdeal.Whole.target m c, ?_, ?_⟩
  · exact (θ_run Cert.KernelIdeal.defs _ _).mono
      (fun r h c => ⟨(h c).1.trans (Cert.KernelIdeal.Whole.final m c (hfin c)), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v68_eq, Cert.ReferenceIdeal.Row.result_eq, a0, a1, a2, a3, a4, a5, a6, a7, a8, a9, a10, a11]
    show _ = Cert.KernelIdeal.Whole.target m c
    unfold Cert.KernelIdeal.Whole.target
    rw [Cert.KernelIdeal.Whole.V_flat, Cert.KernelIdeal.Gen.V_main_arg1, Cert.KernelIdeal.Gen.V_main_arg2, Cert.KernelIdeal.Gen.V_main_arg3]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
